-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S256x128 .f32) (main_arg7 : FVec F S128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S256x128 .f32) (main_arg7 : FVec F S128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S800000x1 : Shape := ⟨2, ![800000, 1]⟩
abbrev S5000x128 : Shape := ⟨2, ![5000, 128]⟩
abbrev S50000x1 : Shape := ⟨2, ![50000, 1]⟩
abbrev S800000x128 : Shape := ⟨2, ![800000, 128]⟩
abbrev S1x128 : Shape := ⟨2, ![1, 128]⟩
abbrev S6400x128 : Shape := ⟨2, ![6400, 128]⟩
abbrev S6400x1 : Shape := ⟨2, ![6400, 1]⟩
abbrev S6400 : Shape := ⟨1, ![6400]⟩
abbrev S1x1 : Shape := ⟨2, ![1, 1]⟩

abbrev nBuf : Space → Nat
  | .hbm => 125
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S50000, .f32⟩
  | .hbm, ⟨46, _⟩ => ⟨S50000x128, .bf16⟩
  | .hbm, ⟨47, _⟩ => ⟨S50000x128, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S800000x1, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .bf16⟩
  | .hbm, ⟨61, _⟩ => ⟨S800000x128, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .bf16⟩
  | .hbm, ⟨76, _⟩ => ⟨S50000x128, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S800000x1, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x128, .bf16⟩
  | .hbm, ⟨90, _⟩ => ⟨S800000x128, .f32⟩
  | .hbm, ⟨91, _⟩ => ⟨S800000x128, .f32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S50000x128, .bf16⟩
  | .hbm, ⟨102, _⟩ => ⟨S_, .i32⟩
  | .hbm, ⟨103, _⟩ => ⟨S800000, .i32⟩
  | .hbm, ⟨104, _⟩ => ⟨S800000, .i1⟩
  | .hbm, ⟨105, _⟩ => ⟨S_, .i32⟩
  | .hbm, ⟨106, _⟩ => ⟨S800000, .i32⟩
  | .hbm, ⟨107, _⟩ => ⟨S800000, .i32⟩
  | .hbm, ⟨108, _⟩ => ⟨S800000, .i32⟩
  | .hbm, ⟨109, _⟩ => ⟨S800000x1, .i32⟩
  | .hbm, ⟨110, _⟩ => ⟨S800000x128, .bf16⟩
  | .hbm, ⟨111, _⟩ => ⟨S_, .i32⟩
  | .hbm, ⟨112, _⟩ => ⟨S800000, .i32⟩
  | .hbm, ⟨113, _⟩ => ⟨S800000, .i1⟩
  | .hbm, ⟨114, _⟩ => ⟨S_, .i32⟩
  | .hbm, ⟨115, _⟩ => ⟨S800000, .i32⟩
  | .hbm, ⟨116, _⟩ => ⟨S800000, .i32⟩
  | .hbm, ⟨117, _⟩ => ⟨S800000, .i32⟩
  | .hbm, ⟨118, _⟩ => ⟨S800000x1, .i32⟩
  | .hbm, ⟨119, _⟩ => ⟨S800000x128, .bf16⟩
  | .hbm, ⟨120, _⟩ => ⟨S128x128, .f32⟩
  | .hbm, ⟨121, _⟩ => ⟨S128x128, .f32⟩
  | .hbm, ⟨122, _⟩ => ⟨S1x128, .f32⟩
  | .hbm, ⟨123, _⟩ => ⟨S800000x1, .f32⟩
  | .hbm, ⟨124, _⟩ => ⟨S800000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .bf16⟩
  | .local _ .vmem, ⟨9, _⟩ => ⟨S5000x128, .bf16⟩
  | .local _ .vmem, ⟨10, _⟩ => ⟨S6400x128, .bf16⟩
  | .local _ .vmem, ⟨11, _⟩ => ⟨S6400x128, .bf16⟩
  | .local _ .vmem, ⟨12, _⟩ => ⟨S6400x128, .bf16⟩
  | .local _ .vmem, ⟨13, _⟩ => ⟨S6400x128, .bf16⟩
  | .local _ .vmem, ⟨14, _⟩ => ⟨S128x128, .f32⟩
  | .local _ .vmem, ⟨15, _⟩ => ⟨S128x128, .f32⟩
  | .local _ .vmem, ⟨16, _⟩ => ⟨S128, .f32⟩
  | .local _ .vmem, ⟨17, _⟩ => ⟨S1x128, .f32⟩
  | .local _ .vmem, ⟨18, _⟩ => ⟨S1, .f32⟩
  | .local _ .vmem, ⟨19, _⟩ => ⟨S6400x1, .f32⟩
  | .local _ .vmem, ⟨20, _⟩ => ⟨S6400x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call0_cst : Ref sig .tc := ⟨.hbm, 72, rfl⟩
abbrev main_call0_v0 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_8 : Ref sig .tc := ⟨.hbm, 81, rfl⟩
abbrev main_v59 : Ref sig .tc := ⟨.hbm, 82, rfl⟩
abbrev main_v60 : Ref sig .tc := ⟨.hbm, 83, rfl⟩
abbrev main_c_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_11 : Ref sig .tc := ⟨.hbm, 102, rfl⟩
abbrev main_v77 : Ref sig .tc := ⟨.hbm, 103, rfl⟩
abbrev main_v78 : Ref sig .tc := ⟨.hbm, 104, rfl⟩
abbrev main_c_12 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_13 : Ref sig .tc := ⟨.hbm, 111, rfl⟩
abbrev main_v84 : Ref sig .tc := ⟨.hbm, 112, rfl⟩
abbrev main_v85 : Ref sig .tc := ⟨.hbm, 113, rfl⟩
abbrev main_c_14 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S6400x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S800000 : S_.BroadcastsInDim S800000 (![] : Fin 0 → Fin S800000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  slices_S256x128_S128x128_0_0 : S256x128.Slices ![0, 0] S128x128
  slices_S256x128_S128x128_128_0 : S256x128.Slices ![128, 0] S128x128
  shapeCasts_S128x1_S1x128 : S128x1.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S6400x128_S6400 : S6400x128.Reduces [1] S6400
  shapeCasts_S6400_S6400x1 : S6400.ShapeCasts S6400x1
  inb_S1_S1_0 : ∀ a, (![0] : Fin 1 → Nat) a + S1.size a ≤ S1.size a
  h_S1 : 0 < S1.numel
  shapeCasts_S1_S1x1 : S1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  shapeCasts_S800000x1_S800000 : S800000x1.ShapeCasts S800000
  scatter_S50000_S850000x1_S850000_n_0_0_1_wf : ScatterDims.WF S50000 S850000x1 S850000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S6400x128_S128x128_S6400x128_1_0_0_1_n_n_wf : DotDims.WF S6400x128 S128x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .bf16 = 32 ∨ (Rect.block (s := S50000x128) S5000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S800000x128.size a
  hwx2_0 : ∀ i : grid2.Coords, EltTy.bits .bf16 = 32 ∨ (Rect.block (s := S800000x128) S6400x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x128.size a ≤ S800000x128.size a
  hwx2_1 : ∀ i : grid2.Coords, EltTy.bits .bf16 = 32 ∨ (Rect.block (s := S800000x128) S6400x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6400x1.size a ≤ S800000x1.size a
  hwx2_7 : ∀ i : grid2.Coords, EltTy.bits .f32 = 32 ∨ (Rect.block (s := S800000x1) S6400x1.size (cc2_transform_7 i) (hinb2_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v83) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v90) S6400x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v91) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v92) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v93) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v94) S6400x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S800000x256 : Shape := ⟨2, ![800000, 256]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S128x1, .f32⟩
  | 9 => ⟨S1, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x128, .f32⟩
  | 47 => ⟨S850000x1, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000, .i32⟩
  | 70 => ⟨S1x800000, .i32⟩
  | 71 => ⟨S800000, .i32⟩
  | 72 => ⟨S850000, .i32⟩
  | 73 => ⟨S1x800000, .i32⟩
  | 74 => ⟨S800000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S50000x128, .f32⟩
  | 106 => ⟨S850000x1, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x128, .f32⟩
  | 116 => ⟨S850000x128, .f32⟩
  | 117 => ⟨S850000x128, .f32⟩
  | 118 => ⟨S_, .f32⟩
  | 119 => ⟨S50000x128, .f32⟩
  | 120 => ⟨S850000x1, .i32⟩
  | 121 => ⟨S50000x128, .f32⟩
  | 122 => ⟨S1x128, .f32⟩
  | 123 => ⟨S50000x128, .f32⟩
  | 124 => ⟨S50000x128, .f32⟩
  | 125 => ⟨S1x800000, .i32⟩
  | 126 => ⟨S800000, .i32⟩
  | 127 => ⟨S1x800000, .i32⟩
  | _ => ⟨S50000x128, .f32⟩

abbrev hbmTy0_1 (i : Nat) : BufTy := match i % 128 with
  | 0 => ⟨S800000, .i32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S800000x256, .f32⟩
  | 20 => ⟨S800000x128, .f32⟩
  | 21 => ⟨S1x128, .f32⟩
  | 22 => ⟨S800000x128, .f32⟩
  | 23 => ⟨S800000x128, .f32⟩
  | 24 => ⟨S_, .f32⟩
  | 25 => ⟨S800000x128, .f32⟩
  | 26 => ⟨S800000x128, .f32⟩
  | 27 => ⟨S800000x1, .f32⟩
  | 28 => ⟨S1x1, .f32⟩
  | 29 => ⟨S800000x1, .f32⟩
  | 30 => ⟨S800000x1, .f32⟩
  | 31 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_15 : Ref sig .tc := ⟨.hbm, 107, rfl⟩
abbrev main_v78 : Ref sig .tc := ⟨.hbm, 108, rfl⟩
abbrev main_v79 : Ref sig .tc := ⟨.hbm, 109, rfl⟩
abbrev main_c_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_c_19 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_20 : Ref sig .tc := ⟨.hbm, 138, rfl⟩
abbrev main_v104 : Ref sig .tc := ⟨.hbm, 139, rfl⟩
abbrev main_v105 : Ref sig .tc := ⟨.hbm, 140, rfl⟩
abbrev main_c_21 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_call1_cst : Ref sig .tc := ⟨.hbm, 152, rfl⟩
abbrev main_call1_v0 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.Terms.lean ====
/-
  The two programs' host computations around the kernels, written once as named compositions of the
  library's operations, so that the bridge lemmas can be stated about them.

  A graph convolution layer with symmetric normalisation: with d(v) the in-degree of node v counting a
  self-loop, s(v) = rsqrt(max(d(v), eps)), the layer sends h to
      out(v, j) = sum over edges e with target v of s(src e) * s(dst e) * h(src e, j)
                  + s(v) * s(v) * h(v, j) + b(j).
  The kernel-side program (namespace K) adds the self-loop term as a dense product beside a scatter over
  the 800000 real edges; the reference (namespace R) scatters over the 850000 rows "edges, then one
  self-loop per node".  The link predictor reads two rows of the node embedding per edge, applies a
  256-to-128 linear layer, a ramp, and a 128-to-1 linear layer.
-/
import proofs.«170264_j3212635537794_2_alg».proof.KernelIdeal
import proofs.«170264_j3212635537794_2_alg».proof.ReferenceIdeal
import Idealize.ShloMosaic.Lib.ValueIdx
import Idealize.ShloMosaic.PureOps.Ideal

noncomputable section

open Idealize.ShloMosaic Idealize.ShloMosaic.ValueIdx

namespace Cert.Terms

/-- The product of a [50000,128] array with a [128,128] array over the extended reals. -/
def matmulSpec (x : (⟨2, ![50000, 128]⟩ : Shape).Idx → EReal) (w : (⟨2, ![128, 128]⟩ : Shape).Idx → EReal) :
    (⟨2, ![50000, 128]⟩ : Shape).Idx → EReal :=
  fun i => ∑ k : Fin 128, x (ix2 (i 0) k) * w (ix2 k (i 1))

/-- The link predictor on one edge: the two gathered rows through the two halves of the first layer, the
    bias, the ramp, the second layer as a weighted row sum, the last bias. -/
def mlpSpec (hs hd : (⟨2, ![800000, 128]⟩ : Shape).Idx → EReal) (wa wb : (⟨2, ![128, 128]⟩ : Shape).Idx → EReal)
    (b1 : (⟨1, ![128]⟩ : Shape).Idx → EReal) (w2 : (⟨2, ![1, 128]⟩ : Shape).Idx → EReal)
    (b2 : (⟨1, ![1]⟩ : Shape).Idx → EReal) : (⟨2, ![800000, 1]⟩ : Shape).Idx → EReal :=
  fun i => (∑ k : Fin 128,
      max (((∑ q : Fin 128, hs (ix2 (i 0) q) * wa (ix2 q k)) + (∑ q : Fin 128, hd (ix2 (i 0) q) * wb (ix2 q k)))
        + b1 (ix1 k)) 0 * w2 (ix2 0 k)) + b2 (ix1 0)

end Cert.Terms

/-! ## The kernel-side program's host operations -/
namespace Cert.Terms.K

open Cert.KernelIdeal Cert.KernelIdeal.Facts₀
variable [Cert.KernelIdeal.Facts]

/-- Row 0 of the edge list: the sources. -/
def src (ei : IVec S2x800000 32) : IVec S800000 32 :=
  shapeCast _ (extractStridedSlice S1x800000 ![0, 0] ei slices_S2x800000_S1x800000_0_0) shapeCasts_S1x800000_S800000
/-- Row 1 of the edge list: the targets. -/
def dst (ei : IVec S2x800000 32) : IVec S800000 32 :=
  shapeCast _ (extractStridedSlice S1x800000 ![1, 0] ei slices_S2x800000_S1x800000_1_0) shapeCasts_S1x800000_S800000
/-- The targets followed by one self-loop per node. -/
def dstC (ei : IVec S2x800000 32) : IVec S850000 32 :=
  concatenate S850000 0 [⟨S800000, dst ei⟩, ⟨S50000, iotaInDim S50000 32 0⟩] concatenates_S800000_S50000_S850000_d0
/-- The degrees, self-loops counted. -/
def deg (ei : IVec S2x800000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 (dstC ei))
    (broadcastInDim S850000 ![] bcast_S_S850000 (constant (F := Ideal) S_ .f32 0x3F800000#32))
/-- s = rsqrt(max(degree, eps)). -/
def dinv (ei : IVec S2x800000 32) : FVec Ideal S50000 .f32 :=
  Host.rsqrt (maximumf (deg ei) (broadcastInDim S50000 ![] bcast_S_S50000 (constant (F := Ideal) S_ .f32 0x2B8CBCCC#32)))
/-- A negative index counted from the end. -/
def nrm (x : IVec S800000 32) : IVec S800000 32 :=
  select (cmpi .slt x (broadcastInDim S800000 ![] bcast_S_S800000 (constantI S_ 32 0#32)))
    (addi x (broadcastInDim S800000 ![] bcast_S_S800000 (constantI S_ 32 50000#32))) x
/-- s read at a vector of node indices. -/
def g1 (d : FVec Ideal S50000 .f32) (x : IVec S800000 32) : FVec Ideal S800000 .f32 :=
  Host.gather gather_S50000_S800000x1_S800000_n_0_n_n_0_1_1 d (broadcastInDim S800000x1 ![0] bcast_S800000_S800000x1_0 (nrm x))
/-- The weight of each real edge. -/
def normE (ei : IVec S2x800000 32) : FVec Ideal S800000 .f32 :=
  mulf (g1 (dinv ei) (src ei)) (g1 (dinv ei) (dst ei))
/-- The weight of each self-loop. -/
def dsq (ei : IVec S2x800000 32) : FVec Ideal S50000 .f32 := mulf (dinv ei) (dinv ei)

/-- One convolution layer applied to the (already transformed) node features `hb`. -/
def conv (ei : IVec S2x800000 32) (hb : FVec Ideal S50000x128 .bf16) (b : FVec Ideal S128 .f32) : FVec Ideal S50000x128 .f32 :=
  addf (addf
      (Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (dst ei))
        (mulf (broadcastInDim S800000x128 ![0, 1] bcast_S800000x1_S800000x128_0_1
                (broadcastInDim S800000x1 ![0] bcast_S800000_S800000x1_0 (normE ei)))
              (extf .f32 (Host.gather gather_S50000x128_S800000x1_S800000x128_1_0_n_n_0_1_1128 hb
                (broadcastInDim S800000x1 ![0] bcast_S800000_S800000x1_0 (nrm (src ei)))) bitsLt_bf16_f32)))
      (mulf (broadcastInDim S50000x128 ![0, 1] bcast_S50000x1_S50000x128_0_1
              (broadcastInDim S50000x1 ![0] bcast_S50000_S50000x1_0 (dsq ei)))
            (extf .f32 hb bitsLt_bf16_f32)))
    (broadcastInDim S50000x128 ![0, 1] bcast_S1x128_S50000x128_0_1 (broadcastInDim S1x128 ![1] bcast_S128_S1x128_1 b))

/-- The ramp on node features. -/
def relu (x : FVec Ideal S50000x128 .f32) : FVec Ideal S50000x128 .f32 :=
  maximumf x (broadcastInDim S50000x128 ![] bcast_S_S50000x128 (constant (F := Ideal) S_ .f32 0x00000000#32))

/-- A row of the node embedding per edge, at the sources (`x = src ei`) or the targets. -/
def rows (H : FVec Ideal S50000x128 .f32) (x : IVec S800000 32) : FVec Ideal S800000x128 .bf16 :=
  Host.gather gather_S50000x128_S800000x1_S800000x128_1_0_n_n_0_1_1128 (truncf .bf16 H bitsLt_bf16_f32)
    (broadcastInDim S800000x1 ![0] bcast_S800000_S800000x1_0 (nrm x))

/-- The link predictor from the node embedding `H`: the third kernel's result, flattened. -/
def tail (ei : IVec S2x800000 32) (H : FVec Ideal S50000x128 .f32) (lpW1 : FVec Ideal S256x128 .f32)
    (lpb1 : FVec Ideal S128 .f32) (lpW2 : FVec Ideal S128x1 .f32) (lpb2 : FVec Ideal S1 .f32) : FVec Ideal S800000 .f32 :=
  shapeCast _ (Cert.Terms.mlpSpec (rows H (src ei)) (rows H (dst ei))
      (extractStridedSlice S128x128 ![0, 0] lpW1 slices_S256x128_S128x128_0_0)
      (extractStridedSlice S128x128 ![128, 0] lpW1 slices_S256x128_S128x128_128_0)
      lpb1 (shapeCast _ lpW2 shapeCasts_S128x1_S1x128) lpb2 : FVec Ideal S800000x1 .f32) shapeCasts_S800000x1_S800000

end Cert.Terms.K

/-! ## The reference program's host operations -/
namespace Cert.Terms.R

open Cert.ReferenceIdeal Cert.ReferenceIdeal.Facts₀
variable [Cert.ReferenceIdeal.Facts]

def src (ei : IVec S2x800000 32) : IVec S800000 32 :=
  shapeCast _ (extractStridedSlice S1x800000 ![0, 0] ei slices_S2x800000_S1x800000_0_0) shapeCasts_S1x800000_S800000
def dst (ei : IVec S2x800000 32) : IVec S800000 32 :=
  shapeCast _ (extractStridedSlice S1x800000 ![1, 0] ei slices_S2x800000_S1x800000_1_0) shapeCasts_S1x800000_S800000
/-- The sources followed by one self-loop per node. -/
def srcC (ei : IVec S2x800000 32) : IVec S850000 32 :=
  concatenate S850000 0 [⟨S800000, src ei⟩, ⟨S50000, iotaInDim S50000 32 0⟩] concatenates_S800000_S50000_S850000_d0
/-- The targets followed by one self-loop per node. -/
def dstC (ei : IVec S2x800000 32) : IVec S850000 32 :=
  concatenate S850000 0 [⟨S800000, dst ei⟩, ⟨S50000, iotaInDim S50000 32 0⟩] concatenates_S800000_S50000_S850000_d0
def deg (ei : IVec S2x800000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 (dstC ei))
    (broadcastInDim S850000 ![] bcast_S_S850000 (constant (F := Ideal) S_ .f32 0x3F800000#32))
def dinv (ei : IVec S2x800000 32) : FVec Ideal S50000 .f32 :=
  Host.rsqrt (maximumf (deg ei) (broadcastInDim S50000 ![] bcast_S_S50000 (constant (F := Ideal) S_ .f32 0x2B8CBCCC#32)))
def nrmC (x : IVec S850000 32) : IVec S850000 32 :=
  select (cmpi .slt x (broadcastInDim S850000 ![] bcast_S_S850000 (constantI S_ 32 0#32)))
    (addi x (broadcastInDim S850000 ![] bcast_S_S850000 (constantI S_ 32 50000#32))) x
def nrm (x : IVec S800000 32) : IVec S800000 32 :=
  select (cmpi .slt x (broadcastInDim S800000 ![] bcast_S_S800000 (constantI S_ 32 0#32)))
    (addi x (broadcastInDim S800000 ![] bcast_S_S800000 (constantI S_ 32 50000#32))) x
def g1 (d : FVec Ideal S50000 .f32) (x : IVec S850000 32) : FVec Ideal S850000 .f32 :=
  Host.gather gather_S50000_S850000x1_S850000_n_0_n_n_0_1_1 d (broadcastInDim S850000x1 ![0] bcast_S850000_S850000x1_0 (nrmC x))
/-- The weight of each of the 850000 rows. -/
def normC (ei : IVec S2x800000 32) : FVec Ideal S850000 .f32 :=
  mulf (g1 (dinv ei) (srcC ei)) (g1 (dinv ei) (dstC ei))

/-- One convolution layer applied to the (already transformed) node features `h`. -/
def conv (ei : IVec S2x800000 32) (h : FVec Ideal S50000x128 .f32) (b : FVec Ideal S128 .f32) : FVec Ideal S50000x128 .f32 :=
  addf
    (Host.scatterAdd scatter_S50000x128_S850000x1_S850000x128_1_0_0_1
      (broadcastInDim S50000x128 ![] bcast_S_S50000x128 (constant (F := Ideal) S_ .f32 0x00000000#32))
      (broadcastInDim S850000x1 ![0] bcast_S850000_S850000x1_0 (dstC ei))
      (mulf (broadcastInDim S850000x128 ![0, 1] bcast_S850000x1_S850000x128_0_1
              (broadcastInDim S850000x1 ![0] bcast_S850000_S850000x1_0 (normC ei)))
            (Host.gather gather_S50000x128_S850000x1_S850000x128_1_0_n_n_0_1_1128 h
              (broadcastInDim S850000x1 ![0] bcast_S850000_S850000x1_0 (nrmC (srcC ei))))))
    (broadcastInDim S50000x128 ![0, 1] bcast_S1x128_S50000x128_0_1 (broadcastInDim S1x128 ![1] bcast_S128_S1x128_1 b))

def relu (x : FVec Ideal S50000x128 .f32) : FVec Ideal S50000x128 .f32 :=
  maximumf x (broadcastInDim S50000x128 ![] bcast_S_S50000x128 (constant (F := Ideal) S_ .f32 0x00000000#32))

/-- The host's product of node features with a [128,128] weight. -/
def lin (x : FVec Ideal S50000x128 .f32) (w : FVec Ideal S128x128 .f32) : FVec Ideal S50000x128 .f32 :=
  Host.dotGeneral dot_S50000x128_S128x128_S50000x128_1_0_0_1_n_n none x w

def rows (H : FVec Ideal S50000x128 .f32) (x : IVec S800000 32) : FVec Ideal S800000x128 .f32 :=
  Host.gather gather_S50000x128_S800000x1_S800000x128_1_0_n_n_0_1_1128 H
    (broadcastInDim S800000x1 ![0] bcast_S800000_S800000x1_0 (nrm x))

/-- The link predictor from the node embedding `H`. -/
def tail (ei : IVec S2x800000 32) (H : FVec Ideal S50000x128 .f32) (lpW1 : FVec Ideal S256x128 .f32)
    (lpb1 : FVec Ideal S128 .f32) (lpW2 : FVec Ideal S128x1 .f32) (lpb2 : FVec Ideal S1 .f32) : FVec Ideal S800000 .f32 :=
  shapeCast _ (addf
      (Host.dotGeneral dot_S800000x128_S128x1_S800000x1_1_0_0_1_n_n none
        (maximumf
          (addf
            (Host.dotGeneral dot_S800000x256_S256x128_S800000x128_1_0_0_1_n_n none
              (concatenate S800000x256 1 [⟨S800000x128, rows H (src ei)⟩, ⟨S800000x128, rows H (dst ei)⟩]
                concatenates_S800000x128_S800000x128_S800000x256_d1) lpW1)
            (broadcastInDim S800000x128 ![0, 1] bcast_S1x128_S800000x128_0_1 (broadcastInDim S1x128 ![1] bcast_S128_S1x128_1 lpb1)))
          (broadcastInDim S800000x128 ![] bcast_S_S800000x128 (constant (F := Ideal) S_ .f32 0x00000000#32)))
        lpW2)
      (broadcastInDim S800000x1 ![0, 1] bcast_S1x1_S800000x1_0_1 (broadcastInDim S1x1 ![1] bcast_S1_S1x1_1 lpb2)))
    shapeCasts_S800000x1_S800000

end Cert.Terms.R

end
-- ==== Proof.KernelRun.lean ====
/-
  The kernel-side program's run with its result named.  The program is three kernel regions among stretches of
  host operations; the launch theorem for such a program gives, at the end of every weakly fair execution, every
  unscoped buffer at the contents the last boundary of the fold holds (`Gen.W8`).  Read at the result buffer,
  that is the result's value; read at an argument, the argument as launched.
-/
import proofs.«170264_j3212635537794_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel-side program ends, without a fault, with the result buffer at the
    last boundary's contents and the arguments as launched. -/
theorem run_named : θ_run defs (onTc (τ := τ) (main (F := F))) ⟨m, fun _ => 0, ρ⟩ (fun r => ∀ c : Dev nD,
      r.2.mem ((c.tc : Thread nD τ).loc main_v95) = W8 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v95 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunValue

end
-- ==== Proof.KernelKeep.lean ====
/-
  The kernel-side program's buffers after its first stretch of host operations — the edge list's two rows, the
  edge weights s(src)·s(dst), the self-loop weights s·s — and the fact that these, and the arguments, are what
  the later boundaries of the run still hold: no later host operation or kernel writes them.
-/
import proofs.«170264_j3212635537794_2_alg».proof.Proof.Gen.KernelIdeal.Frame
import proofs.«170264_j3212635537794_2_alg».proof.Proof.Terms
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.StableHlo Idealize.SL.Sem
open Cert.Terms

variable (m : (ℓ : Loc nD τ sig) → Buf (Elt Ideal) ℓ) (ρ : Dev nD → PrngReg)

/-- The edge list as launched. -/
abbrev ei (c : Dev nD) : IVec S2x800000 32 := m ((c.tc : Thread nD τ).loc main_arg1)

/-! ## After the first stretch (the entry of the first linear kernel) -/

theorem W1_src (c : Dev nD) : W1 (F := Ideal) m ρ c (Proc.devRef .tc main_v1) = K.src (ei m c) := by
  show StableHlo.after hostOps0 _ (Proc.devRef .tc main_v1) = _
  after_results_simp
  rfl
theorem W1_dst (c : Dev nD) : W1 (F := Ideal) m ρ c (Proc.devRef .tc main_v3) = K.dst (ei m c) := by
  show StableHlo.after hostOps0 _ (Proc.devRef .tc main_v3) = _
  after_results_simp
  rfl
theorem W1_normE (c : Dev nD) : W1 (F := Ideal) m ρ c (Proc.devRef .tc main_v27) = K.normE (ei m c) := by
  show StableHlo.after hostOps0 _ (Proc.devRef .tc main_v27) = _
  after_results_simp
  rfl
theorem W1_dsq (c : Dev nD) : W1 (F := Ideal) m ρ c (Proc.devRef .tc main_v28) = K.dsq (ei m c) := by
  show StableHlo.after hostOps0 _ (Proc.devRef .tc main_v28) = _
  after_results_simp
  rfl
/-- A buffer the first stretch does not write holds what was launched. -/
theorem W1_arg0 (c : Dev nD) : W1 (F := Ideal) m ρ c (Proc.devRef .tc main_arg0) = m ((c.tc : Thread nD τ).loc main_arg0) := by
  show StableHlo.after hostOps0 _ (Proc.devRef .tc main_arg0) = _
  after_results_simp
theorem W1_arg2 (c : Dev nD) : W1 (F := Ideal) m ρ c (Proc.devRef .tc main_arg2) = m ((c.tc : Thread nD τ).loc main_arg2) := by
  show StableHlo.after hostOps0 _ (Proc.devRef .tc main_arg2) = _
  after_results_simp

/-! ## The three kernels' values, as hypotheses of this file's readings (proved in the region files) -/

/-- What a linear kernel leaves in its output array: the product of its two input arrays. -/
def Lin0 : Prop := ∀ (V : (c : Dev nD) → (b : Ref sig .tc) → Buf (Elt Ideal) ((c : Thread nD τ).loc b)) (c : Dev nD),
  (dat0 (F := Ideal) V c).arrAt 2 cfg0.N = matmulSpec (V c main_arg0) (V c main_arg2)
def Lin1 : Prop := ∀ (V : (c : Dev nD) → (b : Ref sig .tc) → Buf (Elt Ideal) ((c : Thread nD τ).loc b)) (c : Dev nD),
  (dat1 (F := Ideal) V c).arrAt 2 cfg1.N = matmulSpec (V c main_v52) (V c main_arg4)
/-- What the link-predictor kernel leaves in its output array. -/
def Mlp2 : Prop := ∀ (V : (c : Dev nD) → (b : Ref sig .tc) → Buf (Elt Ideal) ((c : Thread nD τ).loc b)) (c : Dev nD),
  (dat2 (F := Ideal) V c).arrAt 7 cfg2.N = mlpSpec (V c main_v83) (V c main_v90) (V c main_v91) (V c main_v92) (V c main_arg7) (V c main_v93) (V c main_arg9)
theorem W1_arg3 (c : Dev nD) : W1 (F := Ideal) m ρ c (Proc.devRef .tc main_arg3) = m ((c.tc : Thread nD τ).loc main_arg3) := by
  show StableHlo.after hostOps0 _ (Proc.devRef .tc main_arg3) = _
  after_results_simp
theorem W1_arg4 (c : Dev nD) : W1 (F := Ideal) m ρ c (Proc.devRef .tc main_arg4) = m ((c.tc : Thread nD τ).loc main_arg4) := by
  show StableHlo.after hostOps0 _ (Proc.devRef .tc main_arg4) = _
  after_results_simp
theorem W1_arg5 (c : Dev nD) : W1 (F := Ideal) m ρ c (Proc.devRef .tc main_arg5) = m ((c.tc : Thread nD τ).loc main_arg5) := by
  show StableHlo.after hostOps0 _ (Proc.devRef .tc main_arg5) = _
  after_results_simp
theorem W1_arg6 (c : Dev nD) : W1 (F := Ideal) m ρ c (Proc.devRef .tc main_arg6) = m ((c.tc : Thread nD τ).loc main_arg6) := by
  show StableHlo.after hostOps0 _ (Proc.devRef .tc main_arg6) = _
  after_results_simp
theorem W1_arg7 (c : Dev nD) : W1 (F := Ideal) m ρ c (Proc.devRef .tc main_arg7) = m ((c.tc : Thread nD τ).loc main_arg7) := by
  show StableHlo.after hostOps0 _ (Proc.devRef .tc main_arg7) = _
  after_results_simp
theorem W1_arg8 (c : Dev nD) : W1 (F := Ideal) m ρ c (Proc.devRef .tc main_arg8) = m ((c.tc : Thread nD τ).loc main_arg8) := by
  show StableHlo.after hostOps0 _ (Proc.devRef .tc main_arg8) = _
  after_results_simp
theorem W1_arg9 (c : Dev nD) : W1 (F := Ideal) m ρ c (Proc.devRef .tc main_arg9) = m ((c.tc : Thread nD τ).loc main_arg9) := by
  show StableHlo.after hostOps0 _ (Proc.devRef .tc main_arg9) = _
  after_results_simp

/-! ## Buffers no later operation or kernel writes keep their contents across the boundaries -/
theorem W2_v1 (c : Dev nD) : W2 (F := Ideal) m ρ c (Proc.devRef .tc main_v1) = K.src (ei m c) :=
  (W2_of_ne m ρ c main_v1 (by decide)).trans (W1_src m ρ c)
theorem W4_v1 (c : Dev nD) : W4 (F := Ideal) m ρ c (Proc.devRef .tc main_v1) = K.src (ei m c) := by
  show StableHlo.after hostOps1_1 (StableHlo.after hostOps1 (W2 m ρ c)) (Proc.devRef .tc main_v1) = _
  after_results_simp
  exact W2_v1 m ρ c
theorem W5_v1 (c : Dev nD) : W5 (F := Ideal) m ρ c (Proc.devRef .tc main_v1) = K.src (ei m c) :=
  (W5_of_ne m ρ c main_v1 (by decide)).trans (W4_v1 m ρ c)
theorem W2_v3 (c : Dev nD) : W2 (F := Ideal) m ρ c (Proc.devRef .tc main_v3) = K.dst (ei m c) :=
  (W2_of_ne m ρ c main_v3 (by decide)).trans (W1_dst m ρ c)
theorem W4_v3 (c : Dev nD) : W4 (F := Ideal) m ρ c (Proc.devRef .tc main_v3) = K.dst (ei m c) := by
  show StableHlo.after hostOps1_1 (StableHlo.after hostOps1 (W2 m ρ c)) (Proc.devRef .tc main_v3) = _
  after_results_simp
  exact W2_v3 m ρ c
theorem W5_v3 (c : Dev nD) : W5 (F := Ideal) m ρ c (Proc.devRef .tc main_v3) = K.dst (ei m c) :=
  (W5_of_ne m ρ c main_v3 (by decide)).trans (W4_v3 m ρ c)
theorem W2_v27 (c : Dev nD) : W2 (F := Ideal) m ρ c (Proc.devRef .tc main_v27) = K.normE (ei m c) :=
  (W2_of_ne m ρ c main_v27 (by decide)).trans (W1_normE m ρ c)
theorem W4_v27 (c : Dev nD) : W4 (F := Ideal) m ρ c (Proc.devRef .tc main_v27) = K.normE (ei m c) := by
  show StableHlo.after hostOps1_1 (StableHlo.after hostOps1 (W2 m ρ c)) (Proc.devRef .tc main_v27) = _
  after_results_simp
  exact W2_v27 m ρ c
theorem W5_v27 (c : Dev nD) : W5 (F := Ideal) m ρ c (Proc.devRef .tc main_v27) = K.normE (ei m c) :=
  (W5_of_ne m ρ c main_v27 (by decide)).trans (W4_v27 m ρ c)
theorem W2_v28 (c : Dev nD) : W2 (F := Ideal) m ρ c (Proc.devRef .tc main_v28) = K.dsq (ei m c) :=
  (W2_of_ne m ρ c main_v28 (by decide)).trans (W1_dsq m ρ c)
theorem W4_v28 (c : Dev nD) : W4 (F := Ideal) m ρ c (Proc.devRef .tc main_v28) = K.dsq (ei m c) := by
  show StableHlo.after hostOps1_1 (StableHlo.after hostOps1 (W2 m ρ c)) (Proc.devRef .tc main_v28) = _
  after_results_simp
  exact W2_v28 m ρ c
theorem W5_v28 (c : Dev nD) : W5 (F := Ideal) m ρ c (Proc.devRef .tc main_v28) = K.dsq (ei m c) :=
  (W5_of_ne m ρ c main_v28 (by decide)).trans (W4_v28 m ρ c)
theorem W2_arg3 (c : Dev nD) : W2 (F := Ideal) m ρ c (Proc.devRef .tc main_arg3) = m ((c.tc : Thread nD τ).loc main_arg3) :=
  (W2_of_ne m ρ c main_arg3 (by decide)).trans (W1_arg3 m ρ c)
theorem W2_arg4 (c : Dev nD) : W2 (F := Ideal) m ρ c (Proc.devRef .tc main_arg4) = m ((c.tc : Thread nD τ).loc main_arg4) :=
  (W2_of_ne m ρ c main_arg4 (by decide)).trans (W1_arg4 m ρ c)
theorem W4_arg4 (c : Dev nD) : W4 (F := Ideal) m ρ c (Proc.devRef .tc main_arg4) = m ((c.tc : Thread nD τ).loc main_arg4) := by
  show StableHlo.after hostOps1_1 (StableHlo.after hostOps1 (W2 m ρ c)) (Proc.devRef .tc main_arg4) = _
  after_results_simp
  exact W2_arg4 m ρ c
theorem W2_arg5 (c : Dev nD) : W2 (F := Ideal) m ρ c (Proc.devRef .tc main_arg5) = m ((c.tc : Thread nD τ).loc main_arg5) :=
  (W2_of_ne m ρ c main_arg5 (by decide)).trans (W1_arg5 m ρ c)
theorem W4_arg5 (c : Dev nD) : W4 (F := Ideal) m ρ c (Proc.devRef .tc main_arg5) = m ((c.tc : Thread nD τ).loc main_arg5) := by
  show StableHlo.after hostOps1_1 (StableHlo.after hostOps1 (W2 m ρ c)) (Proc.devRef .tc main_arg5) = _
  after_results_simp
  exact W2_arg5 m ρ c
theorem W5_arg5 (c : Dev nD) : W5 (F := Ideal) m ρ c (Proc.devRef .tc main_arg5) = m ((c.tc : Thread nD τ).loc main_arg5) :=
  (W5_of_ne m ρ c main_arg5 (by decide)).trans (W4_arg5 m ρ c)
theorem W2_arg6 (c : Dev nD) : W2 (F := Ideal) m ρ c (Proc.devRef .tc main_arg6) = m ((c.tc : Thread nD τ).loc main_arg6) :=
  (W2_of_ne m ρ c main_arg6 (by decide)).trans (W1_arg6 m ρ c)
theorem W4_arg6 (c : Dev nD) : W4 (F := Ideal) m ρ c (Proc.devRef .tc main_arg6) = m ((c.tc : Thread nD τ).loc main_arg6) := by
  show StableHlo.after hostOps1_1 (StableHlo.after hostOps1 (W2 m ρ c)) (Proc.devRef .tc main_arg6) = _
  after_results_simp
  exact W2_arg6 m ρ c
theorem W5_arg6 (c : Dev nD) : W5 (F := Ideal) m ρ c (Proc.devRef .tc main_arg6) = m ((c.tc : Thread nD τ).loc main_arg6) :=
  (W5_of_ne m ρ c main_arg6 (by decide)).trans (W4_arg6 m ρ c)
theorem W2_arg7 (c : Dev nD) : W2 (F := Ideal) m ρ c (Proc.devRef .tc main_arg7) = m ((c.tc : Thread nD τ).loc main_arg7) :=
  (W2_of_ne m ρ c main_arg7 (by decide)).trans (W1_arg7 m ρ c)
theorem W4_arg7 (c : Dev nD) : W4 (F := Ideal) m ρ c (Proc.devRef .tc main_arg7) = m ((c.tc : Thread nD τ).loc main_arg7) := by
  show StableHlo.after hostOps1_1 (StableHlo.after hostOps1 (W2 m ρ c)) (Proc.devRef .tc main_arg7) = _
  after_results_simp
  exact W2_arg7 m ρ c
theorem W5_arg7 (c : Dev nD) : W5 (F := Ideal) m ρ c (Proc.devRef .tc main_arg7) = m ((c.tc : Thread nD τ).loc main_arg7) :=
  (W5_of_ne m ρ c main_arg7 (by decide)).trans (W4_arg7 m ρ c)
theorem W2_arg8 (c : Dev nD) : W2 (F := Ideal) m ρ c (Proc.devRef .tc main_arg8) = m ((c.tc : Thread nD τ).loc main_arg8) :=
  (W2_of_ne m ρ c main_arg8 (by decide)).trans (W1_arg8 m ρ c)
theorem W4_arg8 (c : Dev nD) : W4 (F := Ideal) m ρ c (Proc.devRef .tc main_arg8) = m ((c.tc : Thread nD τ).loc main_arg8) := by
  show StableHlo.after hostOps1_1 (StableHlo.after hostOps1 (W2 m ρ c)) (Proc.devRef .tc main_arg8) = _
  after_results_simp
  exact W2_arg8 m ρ c
theorem W5_arg8 (c : Dev nD) : W5 (F := Ideal) m ρ c (Proc.devRef .tc main_arg8) = m ((c.tc : Thread nD τ).loc main_arg8) :=
  (W5_of_ne m ρ c main_arg8 (by decide)).trans (W4_arg8 m ρ c)
theorem W2_arg9 (c : Dev nD) : W2 (F := Ideal) m ρ c (Proc.devRef .tc main_arg9) = m ((c.tc : Thread nD τ).loc main_arg9) :=
  (W2_of_ne m ρ c main_arg9 (by decide)).trans (W1_arg9 m ρ c)
theorem W4_arg9 (c : Dev nD) : W4 (F := Ideal) m ρ c (Proc.devRef .tc main_arg9) = m ((c.tc : Thread nD τ).loc main_arg9) := by
  show StableHlo.after hostOps1_1 (StableHlo.after hostOps1 (W2 m ρ c)) (Proc.devRef .tc main_arg9) = _
  after_results_simp
  exact W2_arg9 m ρ c
theorem W5_arg9 (c : Dev nD) : W5 (F := Ideal) m ρ c (Proc.devRef .tc main_arg9) = m ((c.tc : Thread nD τ).loc main_arg9) :=
  (W5_of_ne m ρ c main_arg9 (by decide)).trans (W4_arg9 m ρ c)
theorem W6_arg7 (c : Dev nD) : W6 (F := Ideal) m ρ c (Proc.devRef .tc main_arg7) = m ((c.tc : Thread nD τ).loc main_arg7) := by
  show StableHlo.after hostOps2 (W5 m ρ c) (Proc.devRef .tc main_arg7) = _
  after_results_simp
  exact W5_arg7 m ρ c
theorem W6_arg9 (c : Dev nD) : W6 (F := Ideal) m ρ c (Proc.devRef .tc main_arg9) = m ((c.tc : Thread nD τ).loc main_arg9) := by
  show StableHlo.after hostOps2 (W5 m ρ c) (Proc.devRef .tc main_arg9) = _
  after_results_simp
  exact W5_arg9 m ρ c

end Cert.KernelIdeal.Stages

end
-- ==== Proof.KernelStages.lean ====
/-
  The kernel-side program's buffers at the later boundaries of its run, read as the named host computations of
  Terms.lean: after each linear kernel the matrix product; after the stretch that follows the first, the ramp of
  the first convolution layer; before the link-predictor kernel the gathered rows of the second layer; at the
  end the link predictor, flattened.
-/
import proofs.«170264_j3212635537794_2_alg».proof.Proof.KernelKeep

set_option maxRecDepth 16384

noncomputable section

namespace Cert.KernelIdeal.Stages

open Cert.KernelIdeal Cert.KernelIdeal.Gen
open Idealize.ShloMosaic Idealize.ShloMosaic.TcCoe Idealize.ShloMosaic.StableHlo Idealize.SL.Sem
open Cert.Terms

variable (m : (ℓ : Loc nD τ sig) → Buf (Elt Ideal) ℓ) (ρ : Dev nD → PrngReg)

/-! ## The first linear kernel, the first layer, the second linear kernel -/

/-- After the first linear kernel its output array holds x·W1. -/
theorem W2_lin (h0 : Lin0) (c : Dev nD) : W2 (F := Ideal) m ρ c (Proc.devRef .tc main_v29) = matmulSpec (m ((c.tc : Thread nD τ).loc main_arg0)) (m ((c.tc : Thread nD τ).loc main_arg2)) := by
  refine (W2_arr m ρ c 2).trans ((h0 (V1 m ρ) c).trans ?_)
  show matmulSpec (W1 m ρ c (Proc.devRef .tc main_arg0)) (W1 m ρ c (Proc.devRef .tc main_arg2)) = _
  rw [W1_arg0, W1_arg2]

/-- The ramp as the program calls it: the called function's values sit in buffers of their own, and moving a value
    into and out of a buffer of its own type changes nothing. -/
theorem relu_call (X : FVec Ideal S50000x128 .f32) :
    (TRef.of (sig := sig) (T := ⟨S50000x128, .f32⟩) main_v52).toBuf (Val := Elt Ideal)
      (maximumf (F := Ideal) (φ := .f32)
        (((TRef.of (sig := sig) (T := ⟨S50000x128, .f32⟩) main_v51).ofBuf (Val := Elt Ideal) X) : FVec Ideal S50000x128 .f32)
        (((TRef.of (sig := sig) (T := ⟨S50000x128, .f32⟩) main_call0_v0).ofBuf (Val := Elt Ideal)
          ((TRef.of (sig := sig) (T := ⟨S50000x128, .f32⟩) main_call0_v0).toBuf (Val := Elt Ideal)
            (broadcastInDim S50000x128 ![] Facts₀.bcast_S_S50000x128
              (((TRef.of (sig := sig) (T := ⟨S_, .f32⟩) main_call0_cst).ofBuf (Val := Elt Ideal)
                ((TRef.of (sig := sig) (T := ⟨S_, .f32⟩) main_call0_cst).toBuf (Val := Elt Ideal)
                  (constant (F := Ideal) S_ .f32 0x00000000#32 : FVec Ideal S_ .f32))) : FVec Ideal S_ .f32) : FVec Ideal S50000x128 .f32))) : FVec Ideal S50000x128 .f32))
      = K.relu X := rfl

/-- The first layer's ramp of the convolution of x·W1. -/
def h1 (c : Dev nD) : FVec Ideal S50000x128 .f32 :=
  K.relu (K.conv (ei m c) (matmulSpec (m ((c.tc : Thread nD τ).loc main_arg0)) (m ((c.tc : Thread nD τ).loc main_arg2))) (m ((c.tc : Thread nD τ).loc main_arg3)))

theorem W4_h1 (h0 : Lin0) (c : Dev nD) : W4 (F := Ideal) m ρ c (Proc.devRef .tc main_v52) = h1 m c := by
  show StableHlo.after hostOps1_1 (StableHlo.after hostOps1 (W2 m ρ c)) (Proc.devRef .tc main_v52) = _
  after_results_simp
  rw [W2_v1, W2_v3, W2_v27, W2_v28, W2_arg3, W2_lin m ρ h0]
  refine (relu_call _).trans ?_
  rfl

/-- After the second linear kernel its output array holds h1·W2. -/
theorem W5_lin (h0 : Lin0) (hl1 : Lin1) (c : Dev nD) : W5 (F := Ideal) m ρ c (Proc.devRef .tc main_v53) = matmulSpec (h1 m c) (m ((c.tc : Thread nD τ).loc main_arg4)) := by
  refine (W5_arr m ρ c 2).trans ((hl1 (V4 m ρ) c).trans ?_)
  show matmulSpec (W4 m ρ c (Proc.devRef .tc main_v52)) (W4 m ρ c (Proc.devRef .tc main_arg4)) = _
  rw [W4_h1 m ρ h0, W4_arg4]

/-- The second layer: the node embedding. -/
def h2 (c : Dev nD) : FVec Ideal S50000x128 .f32 :=
  K.conv (ei m c) (matmulSpec (h1 m c) (m ((c.tc : Thread nD τ).loc main_arg4))) (m ((c.tc : Thread nD τ).loc main_arg5))

/-! ## The stretch before the link-predictor kernel, the kernel, the last reshape -/

theorem W6_hs (h0 : Lin0) (hl1 : Lin1) (c : Dev nD) : W6 (F := Ideal) m ρ c (Proc.devRef .tc main_v83) = K.rows (h2 m c) (K.src (ei m c)) := by
  show StableHlo.after hostOps2 (W5 m ρ c) (Proc.devRef .tc main_v83) = _
  after_results_simp
  rw [W5_v1, W5_v3, W5_v27, W5_v28, W5_arg5, W5_lin m ρ h0 hl1]
  rfl
theorem W6_hd (h0 : Lin0) (hl1 : Lin1) (c : Dev nD) : W6 (F := Ideal) m ρ c (Proc.devRef .tc main_v90) = K.rows (h2 m c) (K.dst (ei m c)) := by
  show StableHlo.after hostOps2 (W5 m ρ c) (Proc.devRef .tc main_v90) = _
  after_results_simp
  rw [W5_v1, W5_v3, W5_v27, W5_v28, W5_arg5, W5_lin m ρ h0 hl1]
  rfl
theorem W6_wa (c : Dev nD) : W6 (F := Ideal) m ρ c (Proc.devRef .tc main_v91) =
    extractStridedSlice S128x128 ![0, 0] (m ((c.tc : Thread nD τ).loc main_arg6)) Facts₀.slices_S256x128_S128x128_0_0 := by
  show StableHlo.after hostOps2 (W5 m ρ c) (Proc.devRef .tc main_v91) = _
  after_results_simp
  rw [W5_arg6]
theorem W6_wb (c : Dev nD) : W6 (F := Ideal) m ρ c (Proc.devRef .tc main_v92) =
    extractStridedSlice S128x128 ![128, 0] (m ((c.tc : Thread nD τ).loc main_arg6)) Facts₀.slices_S256x128_S128x128_128_0 := by
  show StableHlo.after hostOps2 (W5 m ρ c) (Proc.devRef .tc main_v92) = _
  after_results_simp
  rw [W5_arg6]
theorem W6_w2 (c : Dev nD) : W6 (F := Ideal) m ρ c (Proc.devRef .tc main_v93) =
    shapeCast _ (m ((c.tc : Thread nD τ).loc main_arg8)) Facts₀.shapeCasts_S128x1_S1x128 := by
  show StableHlo.after hostOps2 (W5 m ρ c) (Proc.devRef .tc main_v93) = _
  after_results_simp
  rw [W5_arg8]
  rfl

/-- The result: the link predictor of the node embedding, flattened. -/
theorem W8_result (h0 : Lin0) (hl1 : Lin1) (h2' : Mlp2) (c : Dev nD) :
    W8 (F := Ideal) m ρ c (Proc.devRef .tc main_v95) =
      K.tail (ei m c) (h2 m c) (m ((c.tc : Thread nD τ).loc main_arg6)) (m ((c.tc : Thread nD τ).loc main_arg7)) (m ((c.tc : Thread nD τ).loc main_arg8)) (m ((c.tc : Thread nD τ).loc main_arg9)) := by
  show StableHlo.after hostOps3 (W7 m ρ c) (Proc.devRef .tc main_v95) = _
  after_results_simp
  rw [show W7 (F := Ideal) m ρ c (Proc.devRef .tc main_v94) = _ from (W7_arr m ρ c 7).trans (h2' (V6 m ρ) c)]
  show shapeCast _ (mlpSpec (W6 m ρ c (Proc.devRef .tc main_v83)) (W6 m ρ c (Proc.devRef .tc main_v90)) (W6 m ρ c (Proc.devRef .tc main_v91)) (W6 m ρ c (Proc.devRef .tc main_v92)) (W6 m ρ c (Proc.devRef .tc main_arg7)) (W6 m ρ c (Proc.devRef .tc main_v93)) (W6 m ρ c (Proc.devRef .tc main_arg9))) _ = _
  rw [W6_hs m ρ h0 hl1, W6_hd m ρ h0 hl1, W6_wa, W6_wb, W6_w2, W6_arg7, W6_arg9]
  rfl

end Cert.KernelIdeal.Stages

end
-- ==== Proof.RefStages.lean ====
/-
  The reference program's result, stage by stage, is the named composition of Terms.lean: two convolution
  layers of the host's matrix products with a ramp between them, then the link predictor.
-/
import proofs.«170264_j3212635537794_2_alg».proof.Proof.Gen.ReferenceIdeal.Read
import proofs.«170264_j3212635537794_2_alg».proof.Proof.Terms

set_option maxRecDepth 16384

noncomputable section

namespace Cert.ReferenceIdeal.Stages

open Cert.ReferenceIdeal Cert.ReferenceIdeal.Read Idealize.ShloMosaic
open Cert.Terms

/-- The reference's result as a function of its ten arguments. -/
theorem ref_value (x0 : FVec Ideal S50000x128 .f32) (x1 : IVec S2x800000 32) (x2 : FVec Ideal S128x128 .f32)
    (x3 : FVec Ideal S128 .f32) (x4 : FVec Ideal S128x128 .f32) (x5 : FVec Ideal S128 .f32) (x6 : FVec Ideal S256x128 .f32)
    (x7 : FVec Ideal S128 .f32) (x8 : FVec Ideal S128x1 .f32) (x9 : FVec Ideal S1 .f32) :
    val_main_v121 (F := Ideal) x0 x1 x2 x3 x4 x5 x6 x7 x8 x9 =
      R.tail x1 (R.conv x1 (R.lin (R.relu (R.conv x1 (R.lin x0 x2) x3)) x4) x5) x6 x7 x8 x9 := rfl

end Cert.ReferenceIdeal.Stages

end
-- ==== Proof.RegionLinear.lean ====
/-
  The two linear kernels of the kernel-side program, read as matrix products.

  Each is one kernel run over a grid of 10 points. Point t takes rows 5000 t … 5000 t + 4999 of a [50000, 128]
  array X and the whole [128, 128] weight W, multiplies them into a zero accumulator and writes the product back
  as rows 5000 t … 5000 t + 4999 of the [50000, 128] result. Over the extended reals a change of float format is
  the identity, so entry (p, j) of what a point writes is  ∑ k, X (5000 t + p, k) * W (k, j):  the block of rows of
  the product X W. The ten blocks tile the result (the point that covers row r is r / 5000), so after the region the
  result array IS the product of the two arrays as the region found them.
-/
import proofs.«170264_j3212635537794_2_alg».proof.Proof.Gen.KernelIdeal.Frame
import proofs.«170264_j3212635537794_2_alg».proof.Proof.Terms
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Bridge

open Cert.KernelIdeal Cert.KernelIdeal.Gen
open Idealize.ShloMosaic Idealize.ShloMosaic.ValueIdx Idealize.ShloMosaic.StackMember Idealize.ShloMosaic.TcCoe Idealize.SL.Sem
open Idealize.ShloMosaic.Pipeline (Dat)

/-! ## One block: the stored value at an entry -/

/-- The zero offsets of a whole-buffer load or store. -/
theorem zero_offsets : (![0, 0] : Fin 2 → Nat) = fun _ => 0 := funext fun a => by fin_cases a <;> rfl

/-- The kernels' dimension numbers are the plain ones: contract the left operand's columns with the right one's rows. -/
theorem dims_plain : dot_S5000x128_S128x128_S5000x128_1_0_0_1_n_n = DotDims.plain 5000 128 128 := rfl

/-- A [5000, 128] by [128, 128] product into a zero accumulator, at the entry (p, j). -/
theorem product_apply {φ₁ φ₂ : FTy} (a : FVec Ideal S5000x128 φ₁) (w : FVec Ideal S128x128 φ₂) (p : Fin 5000) (j : Fin 128) :
    matmul dot_S5000x128_S128x128_S5000x128_1_0_0_1_n_n none a w (constant (F := Ideal) S5000x128 .f32 0x00000000#32) (ix2 p j)
      = ∑ k : Fin 128, a (ix2 p k) * w (ix2 k j) := by
  rw [dims_plain]
  exact (congrFun (matmul_zero_eq_dotGeneral (DotDims.plain 5000 128 128) none a w) (ix2 p j)).trans
    (dotGeneral_plain_apply none a w p j)

/-- What the first kernel stores, at the entry (p, j) of its block: the format changes are the identity. -/
theorem stored0_apply (x0 : Vec Ideal S5000x128 .f32) (x1 : Vec Ideal S128x128 .f32) (p : Fin 5000) (j : Fin 128) :
    k0_pay1 (F := Ideal) x0 x1 (ix2 p j) = ∑ k : Fin 128, x0 (ix2 p k) * x1 (ix2 k j) :=
  product_apply (φ₁ := .bf16) (φ₂ := .bf16) x0 x1 p j

/-- The same entry as an entry of the product of two arrays X and W, when row p of the loaded block is row `i 0` of X
    and column j of the loaded weight is column `i 1` of W. -/
theorem stored0_eq_spec (X : S50000x128.Idx → EReal) (W : S128x128.Idx → EReal)
    (x0 : Vec Ideal S5000x128 .f32) (x1 : Vec Ideal S128x128 .f32) (p : Fin 5000) (j : Fin 128) (i : S50000x128.Idx)
    (hx0 : ∀ k : Fin 128, x0 (ix2 p k) = X (ix2 (i 0) k)) (hx1 : ∀ k : Fin 128, x1 (ix2 k j) = W (ix2 k (i 1))) :
    k0_pay1 (F := Ideal) x0 x1 (ix2 p j) = Cert.Terms.matmulSpec X W i := by
  rw [stored0_apply]
  exact Finset.sum_congr rfl fun k _ => by rw [hx0 k, hx1 k]

/-! ## Region 0: the blocks and the array -/

/-- The printed index maps, decided once over the grid: at point t the row-block of the input and of the result is
    block t, and the weight and every column-block are block 0. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product of the two arrays as the region finds them. -/
theorem written0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Terms.matmulSpec (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨e00, e01, e10, e11, e20, e21⟩ := index_facts0 t
  funext y
  have hy0 : (y 0).val < 5000 := (y 0).isLt
  have hy1 : (y 1).val < 128 := (y 1).isLt
  have ey : (cfg0.win 2).xinj (grid0.coords t) y = ix2 (⟨(y 0).val, hy0⟩ : Fin 5000) (⟨(y 1).val, hy1⟩ : Fin 128) :=
    funext fun a => by match a with | ⟨0, _⟩ => rfl | ⟨1, _⟩ => rfl
  refine (congrArg (k0_pay1 (F := Ideal) (iblk0 V c 0 t) (iblk0 V c 1 t)) ey).trans ?_
  refine stored0_eq_spec (V c main_arg0) (V c main_arg2) (iblk0 V c 0 t) (iblk0 V c 1 t) ⟨(y 0).val, hy0⟩ ⟨(y 1).val, hy1⟩
    (((cfg0.win 2).blk t).view.emb y) (fun k => ?_) (fun k => ?_)
  · show V c main_arg0 (((cfg0.win 0).blk t).view.emb (ix2 (⟨(y 0).val, hy0⟩ : Fin 5000) k))
      = V c main_arg0 (ix2 ((((cfg0.win 2).blk t).view.emb y) 0) k)
    refine congrArg (V c main_arg0) (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  · show V c main_arg2 (((cfg0.win 1).blk t).view.emb (ix2 k (⟨(y 1).val, hy1⟩ : Fin 128)))
      = V c main_arg2 (ix2 k ((((cfg0.win 2).blk t).view.emb y) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega

/-- An entry of the result is in point t's block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- THE BLOCKS TILE THE RESULT: row r is in the block of point r / 5000. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e00, e01, e10, e11, e20, e21⟩ := index_facts0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT OF THE FIRST LINEAR KERNEL: after the region its output array is the product of the input array and the
    weight as the region found them. -/
theorem region0_value (V : (c : Dev nD) → (b : Ref sig .tc) → Buf (Elt Ideal) ((c : Thread nD τ).loc b)) (c : Dev nD) :
    (dat0 (F := Ideal) V c).arrAt 2 cfg0.N = Cert.Terms.matmulSpec (V c main_arg0) (V c main_arg2) :=
  (dat0 (F := Ideal) V c).arrAt_eq_of_cover 2 (Cert.Terms.matmulSpec (V c main_arg0) (V c main_arg2))
    (fun t _ => written0_eq V c t) covered0

/-! ## The second kernel's stored value -/

/-- What the second kernel stores, at the entry (p, j) of its block: it first casts the loaded block to its own shape,
    which changes nothing. -/
theorem stored1_apply (x0 : Vec Ideal S5000x128 .f32) (x1 : Vec Ideal S128x128 .f32) (p : Fin 5000) (j : Fin 128) :
    k1_pay1 (F := Ideal) x0 x1 (ix2 p j) = ∑ k : Fin 128, x0 (ix2 p k) * x1 (ix2 k j) := by
  have e : k1_pay1 (F := Ideal) x0 x1 (ix2 p j)
      = matmul dot_S5000x128_S128x128_S5000x128_1_0_0_1_n_n none
          (truncf .bf16 (shapeCast S5000x128 x0 shapeCasts_S5000x128_S5000x128 : FVec Ideal S5000x128 .f32) bitsLt_bf16_f32)
          (truncf .bf16 x1 bitsLt_bf16_f32) (constant (F := Ideal) S5000x128 .f32 0x00000000#32) (ix2 p j) := rfl
  rw [e, shapeCast_self]
  exact product_apply (φ₁ := .bf16) (φ₂ := .bf16) x0 x1 p j

/-- The same entry as an entry of the product of two arrays X and W, when row p of the loaded block is row `i 0` of X
    and column j of the loaded weight is column `i 1` of W. -/
theorem stored1_eq_spec (X : S50000x128.Idx → EReal) (W : S128x128.Idx → EReal)
    (x0 : Vec Ideal S5000x128 .f32) (x1 : Vec Ideal S128x128 .f32) (p : Fin 5000) (j : Fin 128) (i : S50000x128.Idx)
    (hx0 : ∀ k : Fin 128, x0 (ix2 p k) = X (ix2 (i 0) k)) (hx1 : ∀ k : Fin 128, x1 (ix2 k j) = W (ix2 k (i 1))) :
    k1_pay1 (F := Ideal) x0 x1 (ix2 p j) = Cert.Terms.matmulSpec X W i := by
  rw [stored1_apply]
  exact Finset.sum_congr rfl fun k _ => by rw [hx0 k, hx1 k]

/-! ## Region 1: the blocks and the array -/

/-- The printed index maps, decided once over the grid: at point t the row-block of the input and of the result is
    block t, and the weight and every column-block are block 0. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of the product of the two arrays as the region finds them. -/
theorem written1_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Terms.matmulSpec (V c main_v52) (V c main_arg4)) := by
  show (cfg1.win 2).cut (grid1.coords t) ((dat1 (F := Ideal) V c).after 2 t) = _
  rw [after1_2]
  unfold out1_2
  rw [View.canon_unit_zero zero_offsets]
  simp only [View.ld_unit_zero (S := S5000x128) zero_offsets, View.ld_unit_zero (S := S128x128) zero_offsets]
  obtain ⟨e00, e01, e10, e11, e20, e21⟩ := index_facts1 t
  funext y
  have hy0 : (y 0).val < 5000 := (y 0).isLt
  have hy1 : (y 1).val < 128 := (y 1).isLt
  have ey : (cfg1.win 2).xinj (grid1.coords t) y = ix2 (⟨(y 0).val, hy0⟩ : Fin 5000) (⟨(y 1).val, hy1⟩ : Fin 128) :=
    funext fun a => by match a with | ⟨0, _⟩ => rfl | ⟨1, _⟩ => rfl
  refine (congrArg (k1_pay1 (F := Ideal) (iblk1 V c 0 t) (iblk1 V c 1 t)) ey).trans ?_
  refine stored1_eq_spec (V c main_v52) (V c main_arg4) (iblk1 V c 0 t) (iblk1 V c 1 t) ⟨(y 0).val, hy0⟩ ⟨(y 1).val, hy1⟩
    (((cfg1.win 2).blk t).view.emb y) (fun k => ?_) (fun k => ?_)
  · show V c main_v52 (((cfg1.win 0).blk t).view.emb (ix2 (⟨(y 0).val, hy0⟩ : Fin 5000) k))
      = V c main_v52 (ix2 ((((cfg1.win 2).blk t).view.emb y) 0) k)
    refine congrArg (V c main_v52) (funext fun a => Fin.ext ?_)
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * k.val = k.val; omega
  · show V c main_arg4 (((cfg1.win 1).blk t).view.emb (ix2 k (⟨(y 1).val, hy1⟩ : Fin 128)))
      = V c main_arg4 (ix2 k ((((cfg1.win 2).blk t).view.emb y) 1))
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 128 + 1 * (y 1).val = win1_2.index t (1 : Fin 2) * 128 + 1 * (y 1).val; omega

/-- An entry of the result is in point t's block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v53).slice (win1_2.rect t)).set ↔ _
  rw [View.set_slice_whole, Rect.mem_set_unit]
  exact Iff.rfl

/-- THE BLOCKS TILE THE RESULT: row r is in the block of point r / 5000. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e00, e01, e10, e11, e20, e21⟩ := index_facts1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE RESULT OF THE SECOND LINEAR KERNEL: after the region its output array is the product of the input array and the
    weight as the region found them. -/
theorem region1_value (V : (c : Dev nD) → (b : Ref sig .tc) → Buf (Elt Ideal) ((c : Thread nD τ).loc b)) (c : Dev nD) :
    (dat1 (F := Ideal) V c).arrAt 2 cfg1.N = Cert.Terms.matmulSpec (V c main_v52) (V c main_arg4) :=
  (dat1 (F := Ideal) V c).arrAt_eq_of_cover 2 (Cert.Terms.matmulSpec (V c main_v52) (V c main_arg4))
    (fun t _ => written1_eq V c t) covered1

end Cert.Bridge

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.RegionMlp.lean ====
/-
  The value of the link-predictor kernel: after its 125 grid points have run, the [800000,1] output array holds, at
  edge e,
      (sum over k of max((hs·wa)(e,k) + (hd·wb)(e,k) + b1(k), 0) * w2(0,k)) + b2(0),
  where hs and hd are the gathered source and target rows, wa and wb the two halves of the first layer's weight, b1 its
  bias, w2 the second layer's weight as a row and b2 its bias.

  Three steps.  First the body's arithmetic on one block of 6400 edges, read at row p: the two matrix products into zero
  accumulators are sums over the contracted coordinate; the bias row and the weight row are laid along every row, so at
  (p,k) they read their entry k; the ramp is the maximum with zero; the sum over the 128 lanes with the zero word as its
  neutral element is the plain sum; the last bias, a single entry laid down the column, reads that entry.  Second, what
  grid point t writes back is block t of that function of the whole arrays: row y of block t of the two gathered arrays
  and of the output is row t * 6400 + y of the array, and the weights and biases are whole at every point.  Third, row r
  lies in the block of point r / 6400, so the 125 blocks cover the output and the array is that function everywhere.
-/
import proofs.«170264_j3212635537794_2_alg».proof.Proof.Gen.KernelIdeal.Frame
import proofs.«170264_j3212635537794_2_alg».proof.Proof.Terms
import proofs.«170264_j3212635537794_2_alg».proof.Proof.LibSoftplus
import proofs.«170264_j3212635537794_2_alg».proof.Proof.LibDenseLayer
import proofs.«170264_j3212635537794_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Cert.KernelIdeal Cert.KernelIdeal.Gen
open Idealize.ShloMosaic Idealize.ShloMosaic.ValueIdx Idealize.ShloMosaic.TcCoe Idealize.SL.Sem
open Idealize.ShloMosaic.Pipeline (Dat)

/-! ## The body's arithmetic at one row of a block -/

/-- A sum over axis 1 of a [6400,128] array, from the zero word, read at row p: the sum of that row's 128 entries. -/
theorem lane_sum_apply (src : FVec Ideal S6400x128 .f32) (h : S6400x128.Reduces [1] S6400) (hφ : FKind.Formats .f32)
    (hacc : (0x00000000#32 : BitVec 32) = FKind.add.neutral .f32 hφ) (p : Fin 6400) :
    multiReduction .add [1] S6400 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext c
  apply Fin.ext
  match c with
  | ⟨0, _⟩ => rfl
  | ⟨1, _⟩ => rfl

/-- The body on one block, read at row p: the two products summed over the contracted coordinate, the bias entry added,
    the ramp, the weighted sum over the 128 hidden units, the last bias.  A change of float format is the identity on the
    extended reals, so the truncations of the weights leave no trace. -/
theorem mlp_payload_apply (x0 x1 : Vec Ideal S6400x128 .bf16) (x2 x3 : Vec Ideal S128x128 .f32) (x4 : Vec Ideal S128 .f32)
    (x5 : Vec Ideal S1x128 .f32) (x6 : Vec Ideal S1 .f32) (p : Fin 6400) :
    k2_pay1 (F := Ideal) x0 x1 x2 x3 x4 x5 x6 (ix2 p 0)
      = (∑ k : Fin 128, max (((∑ q : Fin 128, x0 (ix2 p q) * x2 (ix2 q k)) + (∑ q : Fin 128, x1 (ix2 p q) * x3 (ix2 q k)))
          + x4 (ix1 k)) 0 * x5 (ix2 0 k)) + x6 (ix1 0) := by
  unfold k2_pay1
  refine (addf_apply _ _ _).trans ?_
  refine congrArg₂ (· + ·) ?_ ?_
  · -- the lane sum laid as a column, then term by term
    refine (PhysLoss.shapeCast_a_a1_apply _ _ p 0).trans ?_
    refine (lane_sum_apply _ _ _ _ p).trans ?_
    refine Finset.sum_congr rfl fun k _ => ?_
    refine (mulf_apply _ _ _).trans ?_
    refine congrArg₂ (· * ·) ?_ ?_
    · refine (Cert.Lib.DenseLayer.relu_apply _ _).trans ?_
      refine congrArg (max · 0) ?_
      refine (addf_apply _ _ _).trans ?_
      refine congrArg₂ (· + ·) ?_ ?_
      · refine (addf_apply _ _ _).trans ?_
        refine congrArg₂ (· + ·) ?_ ?_
        · refine (Cert.Lib.Softplus.matmul0_plain_apply _ rfl none _ _ p k).trans ?_
          refine Finset.sum_congr rfl fun q _ => ?_
          refine congrArg₂ (· * ·) (congrFun (shapeCast_self x0 _) _) ?_
          exact congrFun (shapeCast_self x2 _) _
        · refine (Cert.Lib.Softplus.matmul0_plain_apply _ rfl none _ _ p k).trans ?_
          refine Finset.sum_congr rfl fun q _ => ?_
          refine congrArg₂ (· * ·) (congrFun (shapeCast_self x1 _) _) ?_
          exact congrFun (shapeCast_self x3 _) _
      · refine (broadcastTo_1b_ab_apply _ _ p k).trans ?_
        exact shapeCast_a_1a_apply _ _ 0 k
    · refine (broadcastTo_1b_ab_apply _ _ p k).trans ?_
      exact congrFun (shapeCast_self x5 _) _
  · refine (broadcastTo_1b_ab_apply _ _ p 0).trans ?_
    exact shapeCast_a_1a_apply _ _ 0 0

/-! ## What a grid point writes back -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The body at any row of a block: the payload lemma with the row's unit coordinate named. -/
theorem mlp_block_apply (x0 x1 : Vec Ideal S6400x128 .bf16) (x2 x3 : Vec Ideal S128x128 .f32) (x4 : Vec Ideal S128 .f32)
    (x5 : Vec Ideal S1x128 .f32) (x6 : Vec Ideal S1 .f32) (y : S6400x1.Idx) :
    k2_pay1 (F := Ideal) x0 x1 x2 x3 x4 x5 x6 y
      = (∑ k : Fin 128, max (((∑ q : Fin 128, x0 (ix2 (y 0) q) * x2 (ix2 q k)) + (∑ q : Fin 128, x1 (ix2 (y 0) q) * x3 (ix2 q k)))
          + x4 (ix1 k)) 0 * x5 (ix2 0 k)) + x6 (ix1 0) := by
  obtain ⟨p, u, rfl⟩ : ∃ (p : Fin 6400) (u : Fin 1), y = ix2 p u := ⟨y 0, y 1, eq_ix2 y⟩
  obtain rfl : u = 0 := Subsingleton.elim _ _
  exact mlp_payload_apply x0 x1 x2 x3 x4 x5 x6 p

/-- The printed index maps over the 125 grid points: the two gathered arrays and the output move with the point along
    the edges, the weights and biases stay at their one block. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

variable (V : (c : Dev nD) → (b : Ref sig .tc) → Buf (Elt Ideal) ((c : Thread nD τ).loc b))

/-- Row r of block t of the gathered source rows is row t * 6400 + r of the array. -/
theorem src_rows_block (c : Dev nD) (t : Fin cfg2.N) (r : Fin 6400) (q : Fin 128) (e : Fin 800000)
    (he : e.val = t.val * 6400 + r.val) :
    (iblk2 (F := Ideal) V c 0 t : Vec Ideal S6400x128 .bf16) (ix2 r q) = (V c main_v83 : S800000x128.Idx → EReal) (ix2 e q) := by
  obtain ⟨e0, e1, -⟩ := index_facts t
  show (V c main_v83 : S800000x128.Idx → EReal) (((cfg2.win 0).blk t).view.emb (ix2 r q)) = _
  refine congrArg _ (funext fun a => Fin.ext ?_)
  match a with
  | ⟨0, _⟩ => show win2_0.index t (0 : Fin 2) * 6400 + 1 * r.val = e.val; omega
  | ⟨1, _⟩ => show win2_0.index t (1 : Fin 2) * 128 + 1 * q.val = q.val; omega

/-- The same for the gathered target rows. -/
theorem dst_rows_block (c : Dev nD) (t : Fin cfg2.N) (r : Fin 6400) (q : Fin 128) (e : Fin 800000)
    (he : e.val = t.val * 6400 + r.val) :
    (iblk2 (F := Ideal) V c 1 t : Vec Ideal S6400x128 .bf16) (ix2 r q) = (V c main_v90 : S800000x128.Idx → EReal) (ix2 e q) := by
  obtain ⟨-, -, e0, e1, -⟩ := index_facts t
  show (V c main_v90 : S800000x128.Idx → EReal) (((cfg2.win 1).blk t).view.emb (ix2 r q)) = _
  refine congrArg _ (funext fun a => Fin.ext ?_)
  match a with
  | ⟨0, _⟩ => show win2_1.index t (0 : Fin 2) * 6400 + 1 * r.val = e.val; omega
  | ⟨1, _⟩ => show win2_1.index t (1 : Fin 2) * 128 + 1 * q.val = q.val; omega

/-- The first half of the first layer's weight is whole at every point. -/
theorem wa_block (c : Dev nD) (t : Fin cfg2.N) (x : S128x128.Idx) :
    (iblk2 (F := Ideal) V c 2 t : Vec Ideal S128x128 .f32) x = (V c main_v91 : S128x128.Idx → EReal) x := by
  obtain ⟨-, -, -, -, e0, e1, -⟩ := index_facts t
  show (V c main_v91 : S128x128.Idx → EReal) (((cfg2.win 2).blk t).view.emb x) = _
  refine congrArg _ (funext fun a => Fin.ext ?_)
  match a with
  | ⟨0, _⟩ => show win2_2.index t (0 : Fin 2) * 128 + 1 * (x 0).val = (x 0).val; omega
  | ⟨1, _⟩ => show win2_2.index t (1 : Fin 2) * 128 + 1 * (x 1).val = (x 1).val; omega

/-- So is the second half. -/
theorem wb_block (c : Dev nD) (t : Fin cfg2.N) (x : S128x128.Idx) :
    (iblk2 (F := Ideal) V c 3 t : Vec Ideal S128x128 .f32) x = (V c main_v92 : S128x128.Idx → EReal) x := by
  obtain ⟨-, -, -, -, -, -, e0, e1, -⟩ := index_facts t
  show (V c main_v92 : S128x128.Idx → EReal) (((cfg2.win 3).blk t).view.emb x) = _
  refine congrArg _ (funext fun a => Fin.ext ?_)
  match a with
  | ⟨0, _⟩ => show win2_3.index t (0 : Fin 2) * 128 + 1 * (x 0).val = (x 0).val; omega
  | ⟨1, _⟩ => show win2_3.index t (1 : Fin 2) * 128 + 1 * (x 1).val = (x 1).val; omega

/-- The first layer's bias is whole at every point. -/
theorem b1_block (c : Dev nD) (t : Fin cfg2.N) (x : S128.Idx) :
    (iblk2 (F := Ideal) V c 4 t : Vec Ideal S128 .f32) x = (V c main_arg7 : S128.Idx → EReal) x := by
  obtain ⟨-, -, -, -, -, -, -, -, e0, -⟩ := index_facts t
  show (V c main_arg7 : S128.Idx → EReal) (((cfg2.win 4).blk t).view.emb x) = _
  refine congrArg _ (funext fun a => Fin.ext ?_)
  match a with
  | ⟨0, _⟩ => show win2_4.index t (0 : Fin 1) * 128 + 1 * (x 0).val = (x 0).val; omega

/-- The second layer's weight row is whole at every point. -/
theorem w2_block (c : Dev nD) (t : Fin cfg2.N) (x : S1x128.Idx) :
    (iblk2 (F := Ideal) V c 5 t : Vec Ideal S1x128 .f32) x = (V c main_v93 : S1x128.Idx → EReal) x := by
  obtain ⟨-, -, -, -, -, -, -, -, -, e0, e1, -⟩ := index_facts t
  show (V c main_v93 : S1x128.Idx → EReal) (((cfg2.win 5).blk t).view.emb x) = _
  refine congrArg _ (funext fun a => Fin.ext ?_)
  match a with
  | ⟨0, _⟩ => show win2_5.index t (0 : Fin 2) * 1 + 1 * (x 0).val = (x 0).val; omega
  | ⟨1, _⟩ => show win2_5.index t (1 : Fin 2) * 128 + 1 * (x 1).val = (x 1).val; omega

/-- The last bias is whole at every point. -/
theorem b2_block (c : Dev nD) (t : Fin cfg2.N) (x : S1.Idx) :
    (iblk2 (F := Ideal) V c 6 t : Vec Ideal S1 .f32) x = (V c main_arg9 : S1.Idx → EReal) x := by
  obtain ⟨-, -, -, -, -, -, -, -, -, -, -, e0, -⟩ := index_facts t
  show (V c main_arg9 : S1.Idx → EReal) (((cfg2.win 6).blk t).view.emb x) = _
  refine congrArg _ (funext fun a => Fin.ext ?_)
  match a with
  | ⟨0, _⟩ => show win2_6.index t (0 : Fin 1) * 1 + 1 * (x 0).val = (x 0).val; omega

/-- What point t writes back is block t of the link predictor of the whole arrays. -/
theorem flushed_mlp (c : Dev nD) (t : Fin cfg2.N) :
    (dat2 (F := Ideal) V c).flushed 7 t
      = ((cfg2.win 7).blk t).view.read (Elt Ideal)
          (Cert.Terms.mlpSpec (V c main_v83) (V c main_v90) (V c main_v91) (V c main_v92) (V c main_arg7) (V c main_v93) (V c main_arg9)) := by
  show (cfg2.win 7).cut (grid2.coords t) ((dat2 V c).after 7 t) = _
  rw [after2_7]
  unfold out2_7
  rw [View.canon_unit_zero zero_offsets2]
  simp only [View.ld_unit_zero (S := S6400x128) zero_offsets2, View.ld_unit_zero (S := S128x128) zero_offsets2,
    View.ld_unit_zero (S := S128) zero_offsets1, View.ld_unit_zero (S := S1x128) zero_offsets2, View.ld_unit_zero (S := S1) zero_offsets1]
  funext y
  show k2_pay1 (F := Ideal) (iblk2 V c 0 t) (iblk2 V c 1 t) (iblk2 V c 2 t) (iblk2 V c 3 t) (iblk2 V c 4 t) (iblk2 V c 5 t) (iblk2 V c 6 t) y
      = Cert.Terms.mlpSpec (V c main_v83) (V c main_v90) (V c main_v91) (V c main_v92) (V c main_arg7) (V c main_v93) (V c main_arg9)
          (((cfg2.win 7).blk t).view.emb y)
  refine (mlp_block_apply (iblk2 V c 0 t) (iblk2 V c 1 t) (iblk2 V c 2 t) (iblk2 V c 3 t) (iblk2 V c 4 t) (iblk2 V c 5 t) (iblk2 V c 6 t) y).trans ?_
  unfold Cert.Terms.mlpSpec
  have hrow : ((((cfg2.win 7).blk t).view.emb y) 0).val = t.val * 6400 + (y 0).val := by
    obtain ⟨-, -, -, -, -, -, -, -, -, -, -, -, e0, -⟩ := index_facts t
    show win2_7.index t (0 : Fin 2) * 6400 + 1 * (y 0).val = _
    omega
  refine congrArg₂ (· + ·) (Finset.sum_congr rfl fun k _ => ?_) (b2_block V c t _)
  refine congrArg₂ (· * ·) (congrArg (max · 0) ?_) (w2_block V c t _)
  refine congrArg₂ (· + ·) (congrArg₂ (· + ·) ?_ ?_) (b1_block V c t _)
  · exact Finset.sum_congr rfl fun q _ => congrArg₂ (· * ·) (src_rows_block V c t (y 0) q _ hrow) (wa_block V c t _)
  · exact Finset.sum_congr rfl fun q _ => congrArg₂ (· * ·) (dst_rows_block V c t (y 0) q _ hrow) (wb_block V c t _)

/-! ## From the blocks to the array -/

/-- An edge row is in point t's block of the output iff it lies in rows t * 6400 … t * 6400 + 6399. -/
theorem mem_out_block (t : Fin cfg2.N) (i : S800000x1.Idx) :
    i ∈ ((cfg2.win 7).blk t).view.set
      ↔ ∀ a : Fin 2, win2_7.index t a * S6400x1.size a ≤ (i a).val ∧ (i a).val < win2_7.index t a * S6400x1.size a + S6400x1.size a := by
  show i ∈ ((View.whole main_v94).slice (win2_7.rect t)).set ↔ _
  rw [View.set_slice_whole, Rect.mem_set_unit]
  exact Iff.rfl

/-- Every edge row is in some point's block: row r in that of point r / 6400. -/
theorem out_cover (i : S800000x1.Idx) :
    ∃ t : Fin cfg2.N, (cfg2.win 7).flush t = true ∧ i ∈ ((cfg2.win 7).blk t).view.set := by
  have hi0 : (i 0).val < 800000 := (i 0).isLt
  have hi1 : (i 1).val < 1 := (i 1).isLt
  obtain ⟨t, ht⟩ : ∃ t : Fin cfg2.N, t.val = (i 0).val / 6400 :=
    ⟨⟨(i 0).val / 6400, lt_of_lt_of_eq (by omega) N_2.symm⟩, rfl⟩
  obtain ⟨-, -, -, -, -, -, -, -, -, -, -, -, e0, e1⟩ := index_facts t
  refine ⟨t, flush2_7 t, ?_⟩
  rw [mem_out_block]
  intro a
  match a with
  | ⟨0, _⟩ =>
    show win2_7.index t (0 : Fin 2) * 6400 ≤ (i 0).val ∧ (i 0).val < win2_7.index t (0 : Fin 2) * 6400 + 6400
    omega
  | ⟨1, _⟩ =>
    show win2_7.index t (1 : Fin 2) * 1 ≤ (i 1).val ∧ (i 1).val < win2_7.index t (1 : Fin 2) * 1 + 1
    omega

/-- The output array after the 125 points: the link predictor of the arrays the region found, at every edge. -/
theorem region2_value (c : Dev nD) :
    (dat2 (F := Ideal) V c).arrAt 7 cfg2.N
      = Cert.Terms.mlpSpec (V c main_v83) (V c main_v90) (V c main_v91) (V c main_v92) (V c main_arg7) (V c main_v93) (V c main_arg9) :=
  (dat2 (F := Ideal) V c).arrAt_eq_of_cover 7 _ (fun t _ => flushed_mlp V c t) out_cover

end Cert.Bridge

end
-- ==== Proof.LibScatterCount.lean ====
/-
  The accumulating scatter that counts, for every node, the edges arriving at it, read over the extended reals.

  Two programs count the same thing in two layouts.  One adds a vector of E update entries into a vector of N
  entries; the other adds a column of E update entries (an E x 1 array) into a column of N entries (an N x 1 array).
  Both read the destination of update e from the same E x 1 table of signed integers, and an update whose destination
  is below 0 or not below N is dropped.  This file shows that update e lands, in either layout, exactly at the node
  whose number is the table's entry (e, 0), and concludes that the two results agree entry by entry whenever the two
  operands do and the two update arrays do:  result_column (n, 0) = result_vector (n).
-/
import Idealize.ShloMosaic.Lib.ValueIdx
import Idealize.ShloMosaic.PureOps.Ideal

noncomputable section

open scoped BigOperators

namespace Cert.Lib.ScatterCount

open Idealize.ShloMosaic Idealize.ShloMosaic.ValueIdx

/-- The vector form's dimension numbers. -/
def vecDims : ScatterDims ⟨1, ![100000]⟩ ⟨2, ![1600000, 1]⟩ ⟨1, ![1600000]⟩ where
  updateWindowDims := []
  insertedWindowDims := [0]
  scatterDimsToOperandDims := [0]
  indexVectorDim := 1

/-- The column form's dimension numbers. -/
def colDims : ScatterDims ⟨2, ![100000, 1]⟩ ⟨2, ![1600000, 1]⟩ ⟨2, ![1600000, 1]⟩ where
  updateWindowDims := [1]
  insertedWindowDims := [0]
  scatterDimsToOperandDims := [0]
  indexVectorDim := 1

/-- An update lands at the operand index i exactly when, on every operand axis, its window's start plus its window
    coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some.injEq]
    constructor
    · intro hi a
      rw [← hi]
      have := (h a).1
      simp only [Int.toNat_of_nonneg this]
    · intro H
      funext a
      refine Fin.ext ?_
      simp only [H a, Int.toNat_natCast]
  · constructor
    · intro hn
      cases hn
    · intro H
      exfalso
      refine h fun a => ?_
      rw [H a]
      have := (i a).isLt
      omega

/-- In the vector form, update e reads its start on the one operand axis from the table's entry (e, 0). -/
theorem vec_start (e : Fin 1600000) (idx : IVec ⟨2, ![1600000, 1]⟩ 32) (a : Fin 1) :
    vecDims.start (ix1 e) idx a = (idx (ix2 e (0 : Fin 1))).toInt := by
  obtain rfl : a = 0 := Subsingleton.elim _ _
  unfold ScatterDims.start
  rw [dif_pos (show (0 : Fin 1) ∈ vecDims.scatterDimsToOperandDims from List.mem_singleton.mpr rfl)]
  have hsi : vecDims.siIdx (ix1 e) ⟨List.idxOf (0 : Fin 1) vecDims.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- In the vector form the one operand axis is inserted: the window coordinate is 0. -/
theorem vec_window (e : Fin 1600000) (a : Fin 1) : vecDims.window (ix1 e) a = 0 := by
  obtain rfl : a = 0 := Subsingleton.elim _ _
  rfl

/-- In the column form, update (e, z) reads its start on the node axis from the table's entry (e, 0). -/
theorem col_start0 (e : Fin 1600000) (z : Fin 1) (idx : IVec ⟨2, ![1600000, 1]⟩ 32) :
    colDims.start (ix2 e z) idx (0 : Fin 2) = (idx (ix2 e (0 : Fin 1))).toInt := by
  unfold ScatterDims.start
  rw [dif_pos (show (0 : Fin 2) ∈ colDims.scatterDimsToOperandDims from List.mem_singleton.mpr rfl)]
  have hsi : colDims.siIdx (ix2 e z) ⟨List.idxOf (0 : Fin 2) colDims.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- In the column form the unit axis is named by no index component: its start is 0. -/
theorem col_start1 (e : Fin 1600000) (z : Fin 1) (idx : IVec ⟨2, ![1600000, 1]⟩ 32) :
    colDims.start (ix2 e z) idx (1 : Fin 2) = 0 := by
  unfold ScatterDims.start
  rw [dif_neg (show (1 : Fin 2) ∉ colDims.scatterDimsToOperandDims by decide)]

/-- In the column form the node axis is inserted: the window coordinate is 0. -/
theorem col_window0 (e : Fin 1600000) (z : Fin 1) : colDims.window (ix2 e z) (0 : Fin 2) = 0 := rfl

/-- In the column form the unit axis carries the update's second coordinate. -/
theorem col_window1 (e : Fin 1600000) (z : Fin 1) : colDims.window (ix2 e z) (1 : Fin 2) = z.val := rfl

/-- In the vector form, update e lands at node n exactly when the table's entry (e, 0) is n. -/
theorem vec_lands_iff (e : Fin 1600000) (idx : IVec ⟨2, ![1600000, 1]⟩ 32) (n : Fin 100000) :
    vecDims.resultIdx? (ix1 e) idx = some (ix1 n) ↔ (idx (ix2 e (0 : Fin 1))).toInt = (n.val : Int) := by
  rw [resultIdx?_eq_some_iff]
  constructor
  · intro H
    have := H (0 : Fin 1)
    rw [vec_start, vec_window] at this
    simpa using this
  · intro H a
    obtain rfl : a = 0 := Subsingleton.elim _ _
    rw [vec_start, vec_window, H]
    simp

/-- In the column form, update (e, z) lands at (n, z') exactly when the table's entry (e, 0) is n. -/
theorem col_lands_iff (e : Fin 1600000) (z : Fin 1) (idx : IVec ⟨2, ![1600000, 1]⟩ 32) (n : Fin 100000) (z' : Fin 1) :
    colDims.resultIdx? (ix2 e z) idx = some (ix2 n z') ↔ (idx (ix2 e (0 : Fin 1))).toInt = (n.val : Int) := by
  rw [resultIdx?_eq_some_iff]
  constructor
  · intro H
    have := H (0 : Fin 2)
    rw [col_start0, col_window0] at this
    simpa using this
  · intro H a
    match a with
    | ⟨0, _⟩ =>
      show colDims.start (ix2 e z) idx (0 : Fin 2) + (colDims.window (ix2 e z) (0 : Fin 2) : Int) = (n.val : Int)
      rw [col_start0, col_window0, H]
      simp
    | ⟨1, _⟩ =>
      show colDims.start (ix2 e z) idx (1 : Fin 2) + (colDims.window (ix2 e z) (1 : Fin 2) : Int) = (z'.val : Int)
      rw [col_start1, col_window1, Fin.val_eq_zero z, Fin.val_eq_zero z']
      simp

/-- A vector's index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a vector's index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE TWO COUNTS AGREE: with the two operands equal entry by entry and the two update arrays equal entry by entry,
    the column form's result at (n, 0) is the vector form's result at n. -/
theorem scatterAdd_col_eq_vec
    (dV : ScatterDims ⟨1, ![100000]⟩ ⟨2, ![1600000, 1]⟩ ⟨1, ![1600000]⟩) (hV : dV = vecDims)
    (dC : ScatterDims ⟨2, ![100000, 1]⟩ ⟨2, ![1600000, 1]⟩ ⟨2, ![1600000, 1]⟩) (hC : dC = colDims)
    (idx : IVec ⟨2, ![1600000, 1]⟩ 32)
    (xV : (⟨1, ![100000]⟩ : Shape).Idx → EReal) (xC : (⟨2, ![100000, 1]⟩ : Shape).Idx → EReal)
    (uV : (⟨1, ![1600000]⟩ : Shape).Idx → EReal) (uC : (⟨2, ![1600000, 1]⟩ : Shape).Idx → EReal)
    (hx : ∀ (n : Fin 100000) (z : Fin 1), xC (ix2 n z) = xV (ix1 n))
    (hu : ∀ (e : Fin 1600000) (z : Fin 1), uC (ix2 e z) = uV (ix1 e))
    (n : Fin 100000) (z : Fin 1) :
    Host.scatterAdd (F := Ideal) (φ := .f32) dC xC idx uC (ix2 n z)
      = Host.scatterAdd (F := Ideal) (φ := .f32) dV xV idx uV (ix1 n) := by
  subst hV hC
  show xC (ix2 n z) + ∑ j ∈ Finset.univ.filter (fun j => colDims.resultIdx? j idx = some (ix2 n z)), uC j
    = xV (ix1 n) + ∑ j ∈ Finset.univ.filter (fun j => vecDims.resultIdx? j idx = some (ix1 n)), uV j
  rw [hx, Finset.sum_filter, Finset.sum_filter, sum_idx2, sum_idx1]
  refine congrArg (xV (ix1 n) + ·) ?_
  refine Finset.sum_congr rfl fun e _ => ?_
  rw [Fintype.sum_unique]
  show (if colDims.resultIdx? (ix2 e (default : Fin 1)) idx = some (ix2 n z) then uC (ix2 e (default : Fin 1)) else 0)
    = (if vecDims.resultIdx? (ix1 e) idx = some (ix1 n) then uV (ix1 e) else 0)
  rw [hu]
  by_cases H : (idx (ix2 e (0 : Fin 1))).toInt = (n.val : Int)
  · rw [if_pos ((col_lands_iff e _ idx n z).2 H), if_pos ((vec_lands_iff e idx n).2 H)]
  · rw [if_neg (fun h => H ((col_lands_iff e _ idx n z).1 h)), if_neg (fun h => H ((vec_lands_iff e idx n).1 h))]

end Cert.Lib.ScatterCount

end
-- ==== Proof.ConvBridge.lean ====
/-
  The two programs' graph-convolution layers are one function.

  With s(v) the normalising factor of node v, both layers send the node features h to
      out(v, j) = sum over edges e with target v of (s(src e) * s(dst e)) * h(src e, j)
                  + (s(v) * s(v)) * h(v, j) + b(j).
  One program adds the self-loop term densely beside an accumulating scatter over the 800000 edges; the other
  scatters over 850000 rows, the edges followed by one self-loop per node.  Read at an index (v, j), the second
  scatter's sum splits by the row: the rows below 800000 are the first scatter's updates, and of the rows
  800000 + v' exactly the one with v' = v lands on v, carrying the dense self-loop term.
-/
import proofs.«170264_j3212635537794_2_alg».proof.Proof.Terms
import proofs.«170264_j3212635537794_2_alg».proof.Proof.LibScatterCount
import Idealize.ShloMosaic.Lib.Pipeline.Value
import Idealize.ShloMosaic.Lib.ValueIdx

noncomputable section

open scoped BigOperators

open Idealize.ShloMosaic Idealize.ShloMosaic.ValueIdx

namespace Cert.Bridge

/-! ## Words: wrapping a negative index, clamping a start index -/

/-- A negative node index counted from the end: x + 50000 when x is negative as a signed word, else x. -/
def wrap (x : BitVec 32) : BitVec 32 :=
  Scalar.select (IntOp.cmpi .slt x 0#32) (IntOp.addi x 50000#32) x

/-- A start index read signed and clamped into [0, N - 1]. -/
def clampIdx (N : Nat) (hN : 0 < N) {w : Nat} (x : BitVec w) : Fin N := ⟨min x.toInt.toNat (N - 1), by omega⟩

/-- The node a gather reads at the index word x: wrapped, then clamped. -/
def node (x : BitVec 32) : Fin 50000 := clampIdx 50000 (by omega) (wrap x)

/-- A node number below 50000, as a 32-bit word, reads back signed as itself. -/
theorem toInt_ofNat_small (n : Nat) (hn : n < 50000) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

/-- Such a word is not negative, so wrapping leaves it. -/
theorem wrap_ofNat_small (n : Nat) (hn : n < 50000) : wrap (BitVec.ofNat 32 n) = BitVec.ofNat 32 n := by
  unfold wrap
  have h0 : IntOp.cmpi .slt (BitVec.ofNat 32 n) 0#32 = 0#1 := by
    show BitVec.ofBool ((BitVec.ofNat 32 n).slt 0#32) = 0#1
    have : (BitVec.ofNat 32 n).slt 0#32 = false := by
      rw [BitVec.slt, toInt_ofNat_small n hn]
      simp
    rw [this]; rfl
  rw [h0, select_zero]

/-- Such a word is in range, so clamping leaves it: the gather reads node n itself. -/
theorem node_ofNat_small (n : Nat) (hn : n < 50000) : node (BitVec.ofNat 32 n) = ⟨n, hn⟩ := by
  unfold node clampIdx
  refine Fin.ext ?_
  show min (wrap (BitVec.ofNat 32 n)).toInt.toNat (50000 - 1) = n
  rw [wrap_ofNat_small n hn, toInt_ofNat_small n hn]
  omega

/-! ## Layout operations read at an index -/

section Layout
variable {α : Type}

/-- A vector turned into a one-column array: entry (r, z) is the vector's entry r. -/
theorem bcast_col_apply {E : Nat} (hb : (⟨1, ![E]⟩ : Shape).BroadcastsInDim ⟨2, ![E, 1]⟩ ![0])
    (x : (⟨1, ![E]⟩ : Shape).Idx → α) (r : Fin E) (z : Fin 1) :
    broadcastInDim ⟨2, ![E, 1]⟩ ![0] hb x (ix2 r z) = x (ix1 r) := by
  refine broadcastInDim_apply _ hb x (ix2 r z) (ix1 r) fun a => ?_
  obtain rfl : a = 0 := Subsingleton.elim _ _
  show r.val = if E = 1 then 0 else r.val
  split
  · have := r.isLt; omega
  · rfl

/-- A one-column array spread along the rows of an [E, C] array: entry (r, c) is the column's entry (r, 0). -/
theorem bcast_rows_apply {E C : Nat} (hb : (⟨2, ![E, 1]⟩ : Shape).BroadcastsInDim ⟨2, ![E, C]⟩ ![0, 1])
    (x : (⟨2, ![E, 1]⟩ : Shape).Idx → α) (r : Fin E) (c : Fin C) :
    broadcastInDim ⟨2, ![E, C]⟩ ![0, 1] hb x (ix2 r c) = x (ix2 r (0 : Fin 1)) := by
  refine broadcastInDim_apply _ hb x (ix2 r c) (ix2 r (0 : Fin 1)) fun a => ?_
  match a with
  | ⟨0, _⟩ =>
    show r.val = if E = 1 then 0 else r.val
    split
    · have := r.isLt; omega
    · rfl
  | ⟨1, _⟩ =>
    show 0 = if 1 = 1 then 0 else c.val
    rfl

/-- Two vectors laid end to end, read below the first one's length: the first vector. -/
theorem concat_left {m n t : Nat} (x₁ : (⟨1, ![m]⟩ : Shape).Idx → α) (x₂ : (⟨1, ![n]⟩ : Shape).Idx → α)
    (h : Shape.Concatenates [(⟨1, ![m]⟩ : Shape), ⟨1, ![n]⟩] ⟨1, ![t]⟩ 0) (r : Fin t) (hr : r.val < m) :
    concatenate ⟨1, ![t]⟩ 0 [⟨⟨1, ![m]⟩, x₁⟩, ⟨⟨1, ![n]⟩, x₂⟩] h (ix1 r) = x₁ (ix1 ⟨r.val, hr⟩) := by
  refine concatenate_pair_apply_left 0 x₁ x₂ h (ix1 r) rfl (ix1 ⟨r.val, hr⟩) fun b => ?_
  obtain rfl : b = 0 := Subsingleton.elim _ _
  rfl

/-- Two vectors laid end to end, read at or past the first one's length: the second vector, that length less. -/
theorem concat_right {m n t : Nat} (x₁ : (⟨1, ![m]⟩ : Shape).Idx → α) (x₂ : (⟨1, ![n]⟩ : Shape).Idx → α)
    (h : Shape.Concatenates [(⟨1, ![m]⟩ : Shape), ⟨1, ![n]⟩] ⟨1, ![t]⟩ 0) (r : Fin t) (hr : m ≤ r.val)
    (hr' : r.val - m < n) :
    concatenate ⟨1, ![t]⟩ 0 [⟨⟨1, ![m]⟩, x₁⟩, ⟨⟨1, ![n]⟩, x₂⟩] h (ix1 r) = x₂ (ix1 ⟨r.val - m, hr'⟩) := by
  refine concatenate_pair_apply_right 0 x₁ x₂ h (ix1 r) rfl rfl (ix1 ⟨r.val - m, hr'⟩) (fun b hb => ?_) ?_
  · exact absurd (Subsingleton.elim _ _) hb
  · show (r.val - m) + m = r.val
    omega

end Layout

/-! ## The gathers read at an index -/

section Gather
variable {α : Type}

/-- The dimension numbers of "a vector read at a one-column array of indices". -/
abbrev g1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- That gather at r: the vector at the index word (r, 0), read signed and clamped. -/
theorem gather1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (r : Fin E) :
    Host.gather (g1Dims N E wf) x idx (ix1 r) = x (ix1 (clampIdx N hN (idx (ix2 r (0 : Fin 1))))) := by
  unfold Host.gather
  congr 1
  funext a
  obtain rfl : a = 0 := Subsingleton.elim _ _
  refine Fin.ext ?_
  show (g1Dims N E wf).start (ix1 r) idx 0 + (g1Dims N E wf).batchCoord (ix1 r) 0 + (g1Dims N E wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (g1Dims N E wf).startIndexMap from List.mem_singleton.mpr rfl)]
  have hsi : (g1Dims N E wf).siIdx (ix1 r) ⟨List.idxOf (0 : Fin 1) (g1Dims N E wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The dimension numbers of "rows of an [N, C] array read at a one-column array of row indices". -/
abbrev g2Dims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- That gather at (r, c): the array's row at the index word (r, 0), read signed and clamped, at column c. -/
theorem gather2_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (r : Fin E) (c : Fin C) :
    Host.gather (g2Dims N C E wf) x idx (ix2 r c) = x (ix2 (clampIdx N hN (idx (ix2 r (0 : Fin 1)))) c) := by
  unfold Host.gather
  congr 1
  funext a
  refine Fin.ext ?_
  match a with
  | ⟨0, _⟩ =>
    show (g2Dims N C E wf).start (ix2 r c) idx 0 + (g2Dims N C E wf).batchCoord (ix2 r c) 0
      + (g2Dims N C E wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (g2Dims N C E wf).startIndexMap from List.mem_singleton.mpr rfl)]
    have hsi : (g2Dims N C E wf).siIdx (ix2 r c) ⟨List.idxOf (0 : Fin 2) (g2Dims N C E wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (g2Dims N C E wf).start (ix2 r c) idx 1 + (g2Dims N C E wf).batchCoord (ix2 r c) 1
      + (g2Dims N C E wf).offCoord (ix2 r c) 1 = c.val
    rw [GatherDims.batchCoord_eq_zero _ _ _ List.not_mem_nil]
    have hs : (g2Dims N C E wf).start (ix2 r c) idx 1 = 0 := by
      unfold GatherDims.start
      rw [dif_neg (fun h : (1 : Fin 2) ∈ (g2Dims N C E wf).startIndexMap =>
        absurd (List.mem_singleton.mp h) (show ¬ ((1 : Fin 2) = 0) by decide))]
    have ho : (g2Dims N C E wf).offCoord (ix2 r c) 1 = c.val := rfl
    rw [hs, ho]
    omega

end Gather

/-! ## The accumulating scatter of rows, read at an index -/

section Scatter
open Cert.Lib.ScatterCount (resultIdx?_eq_some_iff)

/-- The dimension numbers of "rows of an [E, C] update array added into the rows of an [N, C] array that a
    one-column array of row indices names". -/
abbrev scDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E : Nat} (wf : ScatterDims.WF ⟨2, ![N, C]⟩ ⟨2, ![E, 1]⟩ ⟨2, ![E, C]⟩ [1] [0] [0] 1)

/-- Update (e, c) reads its start on the row axis from the index word (e, 0), signed. -/
theorem sc_start0 (e : Fin E) (c : Fin C) (idx : IVec ⟨2, ![E, 1]⟩ 32) :
    (scDims N C E wf).start (ix2 e c) idx (0 : Fin 2) = (idx (ix2 e (0 : Fin 1))).toInt := by
  unfold ScatterDims.start
  rw [dif_pos (show (0 : Fin 2) ∈ (scDims N C E wf).scatterDimsToOperandDims from List.mem_singleton.mpr rfl)]
  have hsi : (scDims N C E wf).siIdx (ix2 e c) ⟨List.idxOf (0 : Fin 2) (scDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is named by no index component: its start is 0. -/
theorem sc_start1 (e : Fin E) (c : Fin C) (idx : IVec ⟨2, ![E, 1]⟩ 32) :
    (scDims N C E wf).start (ix2 e c) idx (1 : Fin 2) = 0 := by
  unfold ScatterDims.start
  rw [dif_neg (fun h : (1 : Fin 2) ∈ (scDims N C E wf).scatterDimsToOperandDims =>
      absurd (List.mem_singleton.mp h) (show ¬ ((1 : Fin 2) = 0) by decide))]

/-- The row axis is inserted: the window coordinate is 0. -/
theorem sc_window0 (e : Fin E) (c : Fin C) : (scDims N C E wf).window (ix2 e c) (0 : Fin 2) = 0 := rfl

/-- The column axis carries the update's column. -/
theorem sc_window1 (e : Fin E) (c : Fin C) : (scDims N C E wf).window (ix2 e c) (1 : Fin 2) = c.val := rfl

/-- Update (e, c) lands at (n, c') exactly when the index word (e, 0) is n and the columns agree. -/
theorem sc_lands_iff (e : Fin E) (c : Fin C) (idx : IVec ⟨2, ![E, 1]⟩ 32) (n : Fin N) (c' : Fin C) :
    (scDims N C E wf).resultIdx? (ix2 e c) idx = some (ix2 n c')
      ↔ (idx (ix2 e (0 : Fin 1))).toInt = (n.val : Int) ∧ c = c' := by
  rw [resultIdx?_eq_some_iff]
  constructor
  · intro H
    have H0 := H (0 : Fin 2)
    have H1 := H (1 : Fin 2)
    rw [sc_start0, sc_window0] at H0
    rw [sc_start1, sc_window1] at H1
    refine ⟨by simpa using H0, Fin.ext ?_⟩
    have : ((c.val : Int)) = ((c'.val : Int)) := by simpa using H1
    exact_mod_cast this
  · rintro ⟨H, rfl⟩ a
    match a with
    | ⟨0, _⟩ =>
      show (scDims N C E wf).start (ix2 e c) idx (0 : Fin 2) + ((scDims N C E wf).window (ix2 e c) (0 : Fin 2) : Int)
        = (n.val : Int)
      rw [sc_start0, sc_window0, H]
      simp
    | ⟨1, _⟩ =>
      show (scDims N C E wf).start (ix2 e c) idx (1 : Fin 2) + ((scDims N C E wf).window (ix2 e c) (1 : Fin 2) : Int)
        = (c.val : Int)
      rw [sc_start1, sc_window1]
      simp

/-- THE SCATTER AT (n, c): the operand's entry plus, over the update rows e whose index word is n, the update's
    entry (e, c). -/
theorem scatter_rows_apply (x0 : (⟨2, ![N, C]⟩ : Shape).Idx → EReal) (idx : IVec ⟨2, ![E, 1]⟩ 32)
    (upd : (⟨2, ![E, C]⟩ : Shape).Idx → EReal) (n : Fin N) (c : Fin C) :
    Host.scatterAdd (F := Ideal) (φ := .f32) (scDims N C E wf) x0 idx upd (ix2 n c)
      = x0 (ix2 n c) + ∑ e : Fin E, if (idx (ix2 e (0 : Fin 1))).toInt = (n.val : Int) then upd (ix2 e c) else 0 := by
  show x0 (ix2 n c) + ∑ j ∈ Finset.univ.filter (fun j => (scDims N C E wf).resultIdx? j idx = some (ix2 n c)), upd j = _
  rw [Finset.sum_filter, sum_idx2]
  refine congrArg (x0 (ix2 n c) + ·) ?_
  refine Finset.sum_congr rfl fun e _ => ?_
  by_cases H : (idx (ix2 e (0 : Fin 1))).toInt = (n.val : Int)
  · rw [if_pos H]
    have : ∀ c' : Fin C, (if (scDims N C E wf).resultIdx? (ix2 e c') idx = some (ix2 n c) then upd (ix2 e c') else 0)
        = if c' = c then upd (ix2 e c') else 0 := fun c' => by
      by_cases hc : c' = c
      · rw [if_pos ((sc_lands_iff wf e c' idx n c).2 ⟨H, hc⟩), if_pos hc]
      · rw [if_neg (fun h => hc ((sc_lands_iff wf e c' idx n c).1 h).2), if_neg hc]
    rw [Finset.sum_congr rfl fun c' _ => this c', Finset.sum_ite_eq' Finset.univ c, if_pos (Finset.mem_univ c)]
  · rw [if_neg H]
    refine Finset.sum_eq_zero fun c' _ => ?_
    rw [if_neg (fun h => H ((sc_lands_iff wf e c' idx n c).1 h).1)]

end Scatter

/-- A sum over m + n rows is the sum over the first m plus the sum over the other n. -/
theorem sum_rows_split {M : Type*} [AddCommMonoid M] (m n : Nat) (f : Fin (m + n) → M) :
    ∑ r, f r = (∑ e : Fin m, f ⟨e.val, by have := e.isLt; omega⟩)
      + ∑ v : Fin n, f ⟨m + v.val, by have := v.isLt; omega⟩ := by
  rw [Fin.sum_univ_add]
  rfl

/-! ## The two programs' index vectors, weights and updates read at an index -/

section Programs
variable [Cert.KernelIdeal.Facts] [Cert.ReferenceIdeal.Facts]

open Cert.Terms

/-- The two programs read one source vector, one target vector and one vector of normalising factors: each pair
    is the same composition, spelt with each program's own (structurally equal) records. -/
theorem edge_src_eq (ei : IVec ⟨2, ![2, 800000]⟩ 32) : K.src ei = R.src ei := rfl
theorem edge_dst_eq (ei : IVec ⟨2, ![2, 800000]⟩ 32) : K.dst ei = R.dst ei := rfl
theorem dinv_eq (ei : IVec ⟨2, ![2, 800000]⟩ 32) : K.dinv ei = R.dinv ei := rfl

/-- What one update row with source word a and target word t adds at column c: (s(a) * s(t)) * h(a, c), the
    nodes read off the words wrapped and clamped. -/
def rowTerm (s : (⟨1, ![50000]⟩ : Shape).Idx → EReal) (h : (⟨2, ![50000, 128]⟩ : Shape).Idx → EReal)
    (a t : BitVec 32) (c : Fin 128) : EReal :=
  (s (ix1 (node a)) * s (ix1 (node t))) * h (ix2 (node a) c)

/-- A self-loop row of node n adds (s(n) * s(n)) * h(n, c). -/
theorem rowTerm_self (s : (⟨1, ![50000]⟩ : Shape).Idx → EReal) (h : (⟨2, ![50000, 128]⟩ : Shape).Idx → EReal)
    (n : Fin 50000) (c : Fin 128) :
    rowTerm s h (BitVec.ofNat 32 n.val) (BitVec.ofNat 32 n.val) c = (s (ix1 n) * s (ix1 n)) * h (ix2 n c) := by
  unfold rowTerm
  rw [node_ofNat_small n.val n.isLt]

/-! ### The program that scatters the 800000 edges -/

theorem K_nrm_apply (x : IVec ⟨1, ![800000]⟩ 32) (i : (⟨1, ![800000]⟩ : Shape).Idx) : K.nrm x i = wrap (x i) := rfl

theorem K_g1_apply (d : (⟨1, ![50000]⟩ : Shape).Idx → EReal) (x : IVec ⟨1, ![800000]⟩ 32) (e : Fin 800000) :
    K.g1 d x (ix1 e) = d (ix1 (node (x (ix1 e)))) := by
  unfold K.g1
  refine (gather1_apply (N := 50000) (E := 800000) (by omega)
    Cert.KernelIdeal.Facts₀.gather_S50000_S800000x1_S800000_n_0_n_n_0_1_1_wf d _ e).trans ?_
  rw [bcast_col_apply]
  rfl

/-- The update array of the 800000-row scatter. -/
def Kupd (ei : IVec ⟨2, ![2, 800000]⟩ 32) (hb : (⟨2, ![50000, 128]⟩ : Shape).Idx → EReal) :
    (⟨2, ![800000, 128]⟩ : Shape).Idx → EReal :=
  mulf (F := Ideal) (φ := .f32)
    (broadcastInDim Cert.KernelIdeal.S800000x128 ![0, 1] Cert.KernelIdeal.Facts₀.bcast_S800000x1_S800000x128_0_1
      (broadcastInDim Cert.KernelIdeal.S800000x1 ![0] Cert.KernelIdeal.Facts₀.bcast_S800000_S800000x1_0 (K.normE ei)))
    (extf .f32 (Host.gather Cert.KernelIdeal.gather_S50000x128_S800000x1_S800000x128_1_0_n_n_0_1_1128
      (hb : FVec Ideal Cert.KernelIdeal.S50000x128 .bf16)
      (broadcastInDim Cert.KernelIdeal.S800000x1 ![0] Cert.KernelIdeal.Facts₀.bcast_S800000_S800000x1_0 (K.nrm (K.src ei))))
      Cert.KernelIdeal.Facts₀.bitsLt_bf16_f32)

/-- Its entry (e, c) is edge e's row term. -/
theorem Kupd_apply (ei : IVec ⟨2, ![2, 800000]⟩ 32) (hb : (⟨2, ![50000, 128]⟩ : Shape).Idx → EReal)
    (e : Fin 800000) (c : Fin 128) :
    Kupd ei hb (ix2 e c) = rowTerm (K.dinv ei) hb (K.src ei (ix1 e)) (K.dst ei (ix1 e)) c := by
  unfold Kupd rowTerm
  rw [mulf_apply, extf_apply, bcast_rows_apply, bcast_col_apply]
  refine congrArg₂ (· * ·) ?_ ?_
  · unfold K.normE
    rw [mulf_apply, K_g1_apply, K_g1_apply]
  · refine (gather2_apply (N := 50000) (C := 128) (E := 800000) (by omega)
      Cert.KernelIdeal.Facts₀.gather_S50000x128_S800000x1_S800000x128_1_0_n_n_0_1_1128_wf hb _ e c).trans ?_
    rw [bcast_col_apply]
    rfl

/-! ### The program that scatters 850000 rows -/

theorem R_nrmC_apply (x : IVec ⟨1, ![850000]⟩ 32) (i : (⟨1, ![850000]⟩ : Shape).Idx) : R.nrmC x i = wrap (x i) := rfl

theorem R_g1_apply (d : (⟨1, ![50000]⟩ : Shape).Idx → EReal) (x : IVec ⟨1, ![850000]⟩ 32) (r : Fin 850000) :
    R.g1 d x (ix1 r) = d (ix1 (node (x (ix1 r)))) := by
  unfold R.g1
  refine (gather1_apply (N := 50000) (E := 850000) (by omega)
    Cert.ReferenceIdeal.Facts₀.gather_S50000_S850000x1_S850000_n_0_n_n_0_1_1_wf d _ r).trans ?_
  rw [bcast_col_apply]
  rfl

/-- The update array of the 850000-row scatter. -/
def Rupd (ei : IVec ⟨2, ![2, 800000]⟩ 32) (h : (⟨2, ![50000, 128]⟩ : Shape).Idx → EReal) :
    (⟨2, ![850000, 128]⟩ : Shape).Idx → EReal :=
  mulf (F := Ideal) (φ := .f32)
    (broadcastInDim Cert.ReferenceIdeal.S850000x128 ![0, 1] Cert.ReferenceIdeal.Facts₀.bcast_S850000x1_S850000x128_0_1
      (broadcastInDim Cert.ReferenceIdeal.S850000x1 ![0] Cert.ReferenceIdeal.Facts₀.bcast_S850000_S850000x1_0 (R.normC ei)))
    (Host.gather Cert.ReferenceIdeal.gather_S50000x128_S850000x1_S850000x128_1_0_n_n_0_1_1128
      (h : FVec Ideal Cert.ReferenceIdeal.S50000x128 .f32)
      (broadcastInDim Cert.ReferenceIdeal.S850000x1 ![0] Cert.ReferenceIdeal.Facts₀.bcast_S850000_S850000x1_0 (R.nrmC (R.srcC ei))))

/-- Its entry (r, c) is row r's row term. -/
theorem Rupd_apply (ei : IVec ⟨2, ![2, 800000]⟩ 32) (h : (⟨2, ![50000, 128]⟩ : Shape).Idx → EReal)
    (r : Fin 850000) (c : Fin 128) :
    Rupd ei h (ix2 r c) = rowTerm (R.dinv ei) h (R.srcC ei (ix1 r)) (R.dstC ei (ix1 r)) c := by
  unfold Rupd rowTerm
  rw [mulf_apply, bcast_rows_apply, bcast_col_apply]
  refine congrArg₂ (· * ·) ?_ ?_
  · unfold R.normC
    rw [mulf_apply, R_g1_apply, R_g1_apply]
  · refine (gather2_apply (N := 50000) (C := 128) (E := 850000) (by omega)
      Cert.ReferenceIdeal.Facts₀.gather_S50000x128_S850000x1_S850000x128_1_0_n_n_0_1_1128_wf h _ r c).trans ?_
    rw [bcast_col_apply]
    rfl

/-- The 850000 targets below 800000 are the edges' targets … -/
theorem R_dstC_left (ei : IVec ⟨2, ![2, 800000]⟩ 32) (e : Fin 800000) :
    R.dstC ei (ix1 (⟨e.val, by have := e.isLt; omega⟩ : Fin 850000)) = R.dst ei (ix1 e) := by
  unfold R.dstC
  exact concat_left _ _ _ (⟨e.val, by have := e.isLt; omega⟩ : Fin 850000) e.isLt

/-- … and so are the sources. -/
theorem R_srcC_left (ei : IVec ⟨2, ![2, 800000]⟩ 32) (e : Fin 800000) :
    R.srcC ei (ix1 (⟨e.val, by have := e.isLt; omega⟩ : Fin 850000)) = R.src ei (ix1 e) := by
  unfold R.srcC
  exact concat_left _ _ _ (⟨e.val, by have := e.isLt; omega⟩ : Fin 850000) e.isLt

/-- Row 800000 + n has target n itself … -/
theorem R_dstC_right (ei : IVec ⟨2, ![2, 800000]⟩ 32) (n : Fin 50000) :
    R.dstC ei (ix1 (⟨800000 + n.val, by have := n.isLt; omega⟩ : Fin 850000)) = BitVec.ofNat 32 n.val := by
  unfold R.dstC
  refine (concat_right _ _ _ (⟨800000 + n.val, by have := n.isLt; omega⟩ : Fin 850000)
    (by show 800000 ≤ 800000 + n.val; omega) (by show 800000 + n.val - 800000 < 50000; have := n.isLt; omega)).trans ?_
  show BitVec.ofNat 32 (800000 + n.val - 800000) = BitVec.ofNat 32 n.val
  rw [Nat.add_sub_cancel_left]

/-- … and source n itself. -/
theorem R_srcC_right (ei : IVec ⟨2, ![2, 800000]⟩ 32) (n : Fin 50000) :
    R.srcC ei (ix1 (⟨800000 + n.val, by have := n.isLt; omega⟩ : Fin 850000)) = BitVec.ofNat 32 n.val := by
  unfold R.srcC
  refine (concat_right _ _ _ (⟨800000 + n.val, by have := n.isLt; omega⟩ : Fin 850000)
    (by show 800000 ≤ 800000 + n.val; omega) (by show 800000 + n.val - 800000 < 50000; have := n.isLt; omega)).trans ?_
  show BitVec.ofNat 32 (800000 + n.val - 800000) = BitVec.ofNat 32 n.val
  rw [Nat.add_sub_cancel_left]

/-- A sum over the 850000 rows is the sum over the 800000 edge rows plus the sum over the 50000 self-loop rows. -/
theorem sum_rows_850000 {M : Type*} [AddCommMonoid M] (f : Fin 850000 → M) :
    ∑ r, f r = (∑ e : Fin 800000, f ⟨e.val, by have := e.isLt; omega⟩)
      + ∑ n : Fin 50000, f ⟨800000 + n.val, by have := n.isLt; omega⟩ :=
  sum_rows_split 800000 50000 f

/-! ## The two layers are one function -/

/-- THE BRIDGE: the layer that scatters the edges and adds the self-loop term densely, and the layer that scatters
    the edges followed by one self-loop row per node, agree on every input. -/
theorem conv_bridge (ei : IVec ⟨2, ![2, 800000]⟩ 32)
    (h : (⟨2, ![50000, 128]⟩ : Shape).Idx → EReal) (b : (⟨1, ![128]⟩ : Shape).Idx → EReal) :
    K.conv ei (h : FVec Ideal Cert.KernelIdeal.S50000x128 .bf16) (b : FVec Ideal Cert.KernelIdeal.S128 .f32)
      = R.conv ei (h : FVec Ideal Cert.ReferenceIdeal.S50000x128 .f32) (b : FVec Ideal Cert.ReferenceIdeal.S128 .f32) := by
  funext i
  obtain ⟨v, j, rfl⟩ : ∃ v j, i = ix2 v j := ⟨i 0, i 1, eq_ix2 i⟩
  unfold K.conv R.conv
  rw [addf_apply, addf_apply, addf_apply]
  -- the bias is one term on both sides
  refine congrArg₂ (· + ·) ?_ rfl
  -- each scatter at (v, j) as a sum over its rows
  change Host.scatterAdd (F := Ideal) (φ := .f32)
        (scDims 50000 128 800000 Cert.KernelIdeal.Facts₀.scatter_S50000x128_S800000x1_S800000x128_1_0_0_1_wf)
        _ _ (Kupd ei h) (ix2 v j) + _
      = Host.scatterAdd (F := Ideal) (φ := .f32)
        (scDims 50000 128 850000 Cert.ReferenceIdeal.Facts₀.scatter_S50000x128_S850000x1_S850000x128_1_0_0_1_wf)
        _ _ (Rupd ei h) (ix2 v j)
  rw [scatter_rows_apply, scatter_rows_apply, add_assoc]
  refine congrArg₂ (· + ·) rfl ?_
  rw [sum_rows_850000]
  refine congrArg₂ (· + ·) (Finset.sum_congr rfl fun e _ => ?_) ?_
  · -- an edge row: the same target, the same update
    rw [bcast_col_apply, bcast_col_apply, Kupd_apply, Rupd_apply, R_dstC_left, R_srcC_left, ← edge_src_eq, ← edge_dst_eq,
      ← dinv_eq]
  · -- the self-loop rows: row 800000 + n lands on n, so exactly the row of v contributes, the dense term
    symm
    calc (∑ n : Fin 50000, _)
        = ∑ n : Fin 50000, if n = v then (R.dinv ei (ix1 n) * R.dinv ei (ix1 n)) * h (ix2 n j) else 0 := by
          refine Finset.sum_congr rfl fun n _ => ?_
          rw [bcast_col_apply, Rupd_apply, R_dstC_right, R_srcC_right, rowTerm_self, toInt_ofNat_small n.val n.isLt]
          by_cases hn : n = v
          · subst hn
            rw [if_pos rfl, if_pos rfl]
          · rw [if_neg hn, if_neg (fun hh => hn (Fin.ext (by exact_mod_cast hh)))]
      _ = (R.dinv ei (ix1 v) * R.dinv ei (ix1 v)) * h (ix2 v j) := by
          rw [Finset.sum_ite_eq' Finset.univ v, if_pos (Finset.mem_univ v)]
      _ = _ := by
          rw [mulf_apply, extf_apply, bcast_rows_apply, bcast_col_apply]
          unfold K.dsq
          rw [mulf_apply, dinv_eq]

end Programs

end Cert.Bridge

end
-- ==== Proof.TailBridge.lean ====
/-
  The link predictor of the two programs is one function of the node embedding, and the host's product of the node
  features with a square weight is the plain matrix product.

  Everything here is re-indexing of finite sums over the extended reals; no finiteness, distributivity or cancellation
  is used. A product of an [m, k] by a [k, n] array read at (a, b) is the sum over c of the products of the entries. A
  sum over 256 coordinates is the sum over its first 128 plus the sum over its last 128. An array joined from two
  [800000, 128] pieces along its second axis reads the first piece below column 128 and the second piece from column
  128 on. A slice of 128 rows of a [256, 128] array reads the array at the row shifted by the slice's offset. A
  [128, 1] array reshaped to [1, 128] keeps its entries in order. So the reference's
      relu ([hs | hd] · W1 + b1) · W2 + b2
  is, entry by entry, the kernel side's
      sum over k of relu ((hs · W1[0:128]) + (hd · W1[128:256]) + b1)(k) * W2(k) + b2.
-/
import proofs.«170264_j3212635537794_2_alg».proof.Proof.Terms
import Idealize.ShloMosaic.Lib.ValueIdx
import Idealize.ShloMosaic.Lib.StackMember
import Idealize.ShloMosaic.Lib.Pipeline.Value
import Idealize.ShloMosaic.PureOps.Ideal.Laws

noncomputable section

open scoped BigOperators

namespace Cert.Bridge

open Idealize.ShloMosaic Idealize.ShloMosaic.ValueIdx Idealize.ShloMosaic.StackMember

/-! ## Reading lemmas over variable operands -/

/-- A product with the plain dimension numbers (the left operand's columns contracted with the right operand's rows),
    read at (a, b): the sum over the contracted coordinate of the products of the entries. -/
theorem dot_plain_apply {M K N : Nat} (D : DotDims ⟨2, ![M, K]⟩ ⟨2, ![K, N]⟩ ⟨2, ![M, N]⟩) (hD : D = DotDims.plain M K N)
    (A : FVec Ideal ⟨2, ![M, K]⟩ .f32) (B : FVec Ideal ⟨2, ![K, N]⟩ .f32) (a : Fin M) (b : Fin N) :
    Host.dotGeneral D none A B (ix2 a b) = ∑ c : Fin K, A (ix2 a c) * B (ix2 c b) := by
  subst hD
  exact dotGeneral_plain_apply none A B a b

/-- A sum over 256 coordinates is the sum over the first 128 plus the sum over the last 128. -/
theorem sum_fin256_halves {M : Type*} [AddCommMonoid M] (f : Fin 256 → M) :
    ∑ c : Fin 256, f c = (∑ q : Fin 128, f ⟨q.val, by omega⟩) + ∑ q : Fin 128, f ⟨128 + q.val, by omega⟩ := by
  have e : ∑ c : Fin 256, f c = ∑ c : Fin (128 + 128), f c := rfl
  rw [e, Fin.sum_univ_add]
  rfl

/-- Two [800000,128] arrays joined along the columns: below column 128 the joined array reads the first. -/
theorem concat_cols_left {α : Type} (x₁ x₂ : (⟨2, ![800000, 128]⟩ : Shape).Idx → α)
    (h : Shape.Concatenates [(⟨2, ![800000, 128]⟩ : Shape), ⟨2, ![800000, 128]⟩] ⟨2, ![800000, 256]⟩ 1)
    (p : Fin 800000) (q : Fin 128) :
    concatenate ⟨2, ![800000, 256]⟩ 1 [⟨⟨2, ![800000, 128]⟩, x₁⟩, ⟨⟨2, ![800000, 128]⟩, x₂⟩] h (ix2 p ⟨q.val, by omega⟩)
      = x₁ (ix2 p q) :=
  concatenate_pair_apply_left 1 x₁ x₂ h _ rfl (ix2 p q) (fun b => match b with | ⟨0, _⟩ => rfl | ⟨1, _⟩ => rfl)

/-- … and from column 128 on it reads the second, 128 columns to the left. -/
theorem concat_cols_right {α : Type} (x₁ x₂ : (⟨2, ![800000, 128]⟩ : Shape).Idx → α)
    (h : Shape.Concatenates [(⟨2, ![800000, 128]⟩ : Shape), ⟨2, ![800000, 128]⟩] ⟨2, ![800000, 256]⟩ 1)
    (p : Fin 800000) (q : Fin 128) :
    concatenate ⟨2, ![800000, 256]⟩ 1 [⟨⟨2, ![800000, 128]⟩, x₁⟩, ⟨⟨2, ![800000, 128]⟩, x₂⟩] h (ix2 p ⟨128 + q.val, by omega⟩)
      = x₂ (ix2 p q) :=
  concatenate_pair_apply_right 1 x₁ x₂ h _ rfl rfl (ix2 p q)
    (fun b hb => match b, hb with | ⟨0, _⟩, _ => rfl | ⟨1, _⟩, hb => absurd rfl hb)
    (by show q.val + 128 = 128 + q.val; omega)

/-- The first 128 rows of a [256,128] array. -/
theorem slice_rows_lo {α : Type} (W : (⟨2, ![256, 128]⟩ : Shape).Idx → α)
    (h : (⟨2, ![256, 128]⟩ : Shape).Slices ![0, 0] ⟨2, ![128, 128]⟩) (q k : Fin 128) :
    extractStridedSlice ⟨2, ![128, 128]⟩ ![0, 0] W h (ix2 q k) = W (ix2 ⟨q.val, by omega⟩ k) :=
  extractStridedSlice_apply _ W h _ _ (fun a => match a with
    | ⟨0, _⟩ => by show q.val = 0 + q.val; omega
    | ⟨1, _⟩ => by show k.val = 0 + k.val; omega)

/-- The last 128 rows of a [256,128] array. -/
theorem slice_rows_hi {α : Type} (W : (⟨2, ![256, 128]⟩ : Shape).Idx → α)
    (h : (⟨2, ![256, 128]⟩ : Shape).Slices ![128, 0] ⟨2, ![128, 128]⟩) (q k : Fin 128) :
    extractStridedSlice ⟨2, ![128, 128]⟩ ![128, 0] W h (ix2 q k) = W (ix2 ⟨128 + q.val, by omega⟩ k) :=
  extractStridedSlice_apply _ W h _ _ (fun a => match a with
    | ⟨0, _⟩ => by show 128 + q.val = 128 + q.val; rfl
    | ⟨1, _⟩ => by show k.val = 0 + k.val; omega)

/-- A column [128,1] reshaped to a row [1,128] keeps its entries in order. -/
theorem reshape_col_row {α : Type} (w : (⟨2, ![128, 1]⟩ : Shape).Idx → α)
    (h : (⟨2, ![128, 1]⟩ : Shape).ShapeCasts ⟨2, ![1, 128]⟩) (k : Fin 128) :
    shapeCast ⟨2, ![1, 128]⟩ w h (ix2 0 k) = w (ix2 k 0) :=
  shapeCast_apply w h _ _ (by
    rewrite [Shape.rowMajor_val_two, Shape.rowMajor_val_two]
    show k.val * 1 + 0 = 0 * 128 + k.val
    omega)

/-- A [128] vector copied into every row of a [800000,128] array, through a [1,128] row. -/
theorem bias_rows_apply {α : Type} (b : (⟨1, ![128]⟩ : Shape).Idx → α)
    (h₁ : (⟨1, ![128]⟩ : Shape).BroadcastsInDim ⟨2, ![1, 128]⟩ (![1] : Fin 1 → Fin 2))
    (h₂ : (⟨2, ![1, 128]⟩ : Shape).BroadcastsInDim ⟨2, ![800000, 128]⟩ (![0, 1] : Fin 2 → Fin 2))
    (p : Fin 800000) (k : Fin 128) :
    broadcastInDim ⟨2, ![800000, 128]⟩ ![0, 1] h₂ (broadcastInDim ⟨2, ![1, 128]⟩ ![1] h₁ b) (ix2 p k) = b (ix1 k) :=
  (broadcastInDim_apply _ h₂ _ (ix2 p k) (ix2 0 k) (fun a => match a with
    | ⟨0, _⟩ => by show 0 = if (1 : Nat) = 1 then 0 else p.val; rw [if_pos rfl]
    | ⟨1, _⟩ => by show k.val = if (128 : Nat) = 1 then 0 else k.val; rw [if_neg (by decide)])).trans
  (broadcastInDim_apply _ h₁ b (ix2 0 k) (ix1 k) (fun a => match a with
    | ⟨0, _⟩ => by show k.val = if (128 : Nat) = 1 then 0 else k.val; rw [if_neg (by decide)]))

/-- A [1] vector copied to every entry of a [800000,1] column, through a [1,1] array. -/
theorem bias_one_apply {α : Type} (b : (⟨1, ![1]⟩ : Shape).Idx → α)
    (h₁ : (⟨1, ![1]⟩ : Shape).BroadcastsInDim ⟨2, ![1, 1]⟩ (![1] : Fin 1 → Fin 2))
    (h₂ : (⟨2, ![1, 1]⟩ : Shape).BroadcastsInDim ⟨2, ![800000, 1]⟩ (![0, 1] : Fin 2 → Fin 2))
    (p : Fin 800000) :
    broadcastInDim ⟨2, ![800000, 1]⟩ ![0, 1] h₂ (broadcastInDim ⟨2, ![1, 1]⟩ ![1] h₁ b) (ix2 p 0) = b (ix1 0) :=
  (broadcastInDim_apply _ h₂ _ (ix2 p 0) (ix2 0 0) (fun a => match a with
    | ⟨0, _⟩ => by show 0 = if (1 : Nat) = 1 then 0 else p.val; rw [if_pos rfl]
    | ⟨1, _⟩ => by show 0 = if (1 : Nat) = 1 then 0 else 0; rw [if_pos rfl])).trans
  (broadcastInDim_apply _ h₁ b (ix2 0 0) (ix1 0) (fun a => match a with
    | ⟨0, _⟩ => by show 0 = if (1 : Nat) = 1 then 0 else 0; rw [if_pos rfl]))

/-- The splat of the zero word is zero at every index. -/
theorem zero_splat_apply {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) :=
  (broadcastInDim_apply _ h _ i ix0 (fun a => a.elim0)).trans Ideal.ofBits_zero_f32

/-! ## The link predictor's chain of host operations is the closed formula -/

/-- The reference's chain — join the two row arrays, multiply by the first weight, add the bias, ramp, multiply by the
    second weight, add the last bias — is the closed formula, once each layout operation is read at an index: the
    contraction over 256 columns splits into the two halves, which are the two row arrays against the two halves of
    the first weight. -/
theorem mlp_chain (hs hd : (⟨2, ![800000, 128]⟩ : Shape).Idx → EReal) (lpW1 : (⟨2, ![256, 128]⟩ : Shape).Idx → EReal)
    (lpb1 : (⟨1, ![128]⟩ : Shape).Idx → EReal) (lpW2 : (⟨2, ![128, 1]⟩ : Shape).Idx → EReal) (lpb2 : (⟨1, ![1]⟩ : Shape).Idx → EReal)
    (wa wb : (⟨2, ![128, 128]⟩ : Shape).Idx → EReal) (w2 : (⟨2, ![1, 128]⟩ : Shape).Idx → EReal)
    (C : (⟨2, ![800000, 256]⟩ : Shape).Idx → EReal) (bias1 Z : (⟨2, ![800000, 128]⟩ : Shape).Idx → EReal)
    (bias2 : (⟨2, ![800000, 1]⟩ : Shape).Idx → EReal)
    (hwa : ∀ q k : Fin 128, wa (ix2 q k) = lpW1 (ix2 ⟨q.val, by omega⟩ k))
    (hwb : ∀ q k : Fin 128, wb (ix2 q k) = lpW1 (ix2 ⟨128 + q.val, by omega⟩ k))
    (hw2 : ∀ k : Fin 128, w2 (ix2 0 k) = lpW2 (ix2 k 0))
    (hCl : ∀ (p : Fin 800000) (q : Fin 128), C (ix2 p ⟨q.val, by omega⟩) = hs (ix2 p q))
    (hCr : ∀ (p : Fin 800000) (q : Fin 128), C (ix2 p ⟨128 + q.val, by omega⟩) = hd (ix2 p q))
    (hb1 : ∀ (p : Fin 800000) (k : Fin 128), bias1 (ix2 p k) = lpb1 (ix1 k))
    (hZ : ∀ i, Z i = 0)
    (hb2 : ∀ p : Fin 800000, bias2 (ix2 p 0) = lpb2 (ix1 0))
    (D2 : DotDims ⟨2, ![800000, 256]⟩ ⟨2, ![256, 128]⟩ ⟨2, ![800000, 128]⟩) (hD2 : D2 = DotDims.plain 800000 256 128)
    (D3 : DotDims ⟨2, ![800000, 128]⟩ ⟨2, ![128, 1]⟩ ⟨2, ![800000, 1]⟩) (hD3 : D3 = DotDims.plain 800000 128 1) :
    Cert.Terms.mlpSpec hs hd wa wb lpb1 w2 lpb2
      = addf (F := Ideal) (φ := .f32)
          (Host.dotGeneral (F := Ideal) (φ₁ := .f32) (φ₂ := .f32) D3 none
            (maximumf (F := Ideal) (φ := .f32)
              (addf (F := Ideal) (φ := .f32) (Host.dotGeneral (F := Ideal) (φ₁ := .f32) (φ₂ := .f32) D2 none C lpW1) bias1) Z) lpW2)
          bias2 := by
  funext i
  obtain ⟨p, z, rfl⟩ : ∃ (p : Fin 800000) (z : Fin 1), i = ix2 p z := ⟨i 0, i 1, eq_ix2 i⟩
  obtain rfl : z = 0 := Subsingleton.elim _ _
  have hL : ∀ k : Fin 128, Host.dotGeneral (F := Ideal) (φ₁ := .f32) (φ₂ := .f32) D2 none C lpW1 (ix2 p k)
      = (∑ q : Fin 128, hs (ix2 p q) * wa (ix2 q k)) + ∑ q : Fin 128, hd (ix2 p q) * wb (ix2 q k) := by
    intro k
    rw [dot_plain_apply D2 hD2, sum_fin256_halves]
    congr 1
    · exact Finset.sum_congr rfl fun q _ => by rw [hCl, hwa]
    · exact Finset.sum_congr rfl fun q _ => by rw [hCr, hwb]
  rw [addf_apply, dot_plain_apply D3 hD3, hb2]
  show (∑ k : Fin 128,
      max (((∑ q : Fin 128, hs (ix2 p q) * wa (ix2 q k)) + (∑ q : Fin 128, hd (ix2 p q) * wb (ix2 q k)))
        + lpb1 (ix1 k)) 0 * w2 (ix2 0 k)) + lpb2 (ix1 0) = _
  congr 1
  refine Finset.sum_congr rfl fun k _ => ?_
  rw [maximumf_apply, addf_apply, hL, hb1, hZ, hw2]

/-! ## The two statements -/

/-- The host's product of the node features with a [128,128] weight is the matrix product. -/
theorem lin_eq [Cert.ReferenceIdeal.Facts] (x : (⟨2, ![50000, 128]⟩ : Shape).Idx → EReal) (w : (⟨2, ![128, 128]⟩ : Shape).Idx → EReal) :
    Cert.Terms.R.lin x w = Cert.Terms.matmulSpec x w := by
  funext i
  obtain ⟨a, b, rfl⟩ : ∃ (a : Fin 50000) (b : Fin 128), i = ix2 a b := ⟨i 0, i 1, eq_ix2 i⟩
  exact dot_plain_apply _ rfl x w a b

/-- The two programs gather the same rows of the node embedding: a change of float format is the identity on extended
    reals, and the two programs' index arithmetic and dimension numbers are the same terms. -/
theorem rows_eq [Cert.KernelIdeal.Facts] [Cert.ReferenceIdeal.Facts] (H : (⟨2, ![50000, 128]⟩ : Shape).Idx → EReal)
    (x : IVec ⟨1, ![800000]⟩ 32) : Cert.Terms.K.rows H x = Cert.Terms.R.rows H x := rfl

/-- The two programs read the same sources off the edge list … -/
theorem src_eq [Cert.KernelIdeal.Facts] [Cert.ReferenceIdeal.Facts] (ei : IVec ⟨2, ![2, 800000]⟩ 32) :
    Cert.Terms.K.src ei = Cert.Terms.R.src ei := rfl

/-- … and the same targets. -/
theorem dst_eq [Cert.KernelIdeal.Facts] [Cert.ReferenceIdeal.Facts] (ei : IVec ⟨2, ![2, 800000]⟩ 32) :
    Cert.Terms.K.dst ei = Cert.Terms.R.dst ei := rfl

/-- The two programs' link predictors are one function of the edge list, the node embedding and the four parameters. -/
theorem tail_bridge [Cert.KernelIdeal.Facts] [Cert.ReferenceIdeal.Facts] (ei : IVec ⟨2, ![2, 800000]⟩ 32)
    (H : (⟨2, ![50000, 128]⟩ : Shape).Idx → EReal) (lpW1 : (⟨2, ![256, 128]⟩ : Shape).Idx → EReal) (lpb1 : (⟨1, ![128]⟩ : Shape).Idx → EReal)
    (lpW2 : (⟨2, ![128, 1]⟩ : Shape).Idx → EReal) (lpb2 : (⟨1, ![1]⟩ : Shape).Idx → EReal) :
    Cert.Terms.K.tail ei H lpW1 lpb1 lpW2 lpb2 = Cert.Terms.R.tail ei H lpW1 lpb1 lpW2 lpb2 := by
  have e1 : Cert.Terms.K.rows H (Cert.Terms.K.src ei) = Cert.Terms.R.rows H (Cert.Terms.R.src ei) :=
    (congrArg (Cert.Terms.K.rows H) (src_eq ei)).trans (rows_eq H _)
  have e2 : Cert.Terms.K.rows H (Cert.Terms.K.dst ei) = Cert.Terms.R.rows H (Cert.Terms.R.dst ei) :=
    (congrArg (Cert.Terms.K.rows H) (dst_eq ei)).trans (rows_eq H _)
  unfold Cert.Terms.K.tail Cert.Terms.R.tail
  rw [e1, e2]
  generalize Cert.Terms.R.rows H (Cert.Terms.R.src ei) = hs
  generalize Cert.Terms.R.rows H (Cert.Terms.R.dst ei) = hd
  exact congrArg (fun v => shapeCast _ v _)
    (mlp_chain hs hd lpW1 lpb1 lpW2 lpb2 _ _ _ _ _ _ _
      (slice_rows_lo _ _) (slice_rows_hi _ _) (reshape_col_row _ _) (concat_cols_left _ _ _) (concat_cols_right _ _ _)
      (bias_rows_apply _ _ _) (zero_splat_apply _) (bias_one_apply _ _ _) _ rfl _ rfl)

end Cert.Bridge

end
-- ==== Proof.lean ====
/-
  The certificate of a two-layer graph convolution network with a link predictor.

  With d(v) the in-degree of node v counting one self-loop and s(v) = rsqrt(max(d(v), eps)), a layer sends
  node features h to
      out(v, j) = sum over edges e with target v of (s(src e) * s(dst e)) * (h·W)(src e, j)
                  + (s(v) * s(v)) * (h·W)(v, j) + b(j),
  and the link predictor sends the node embedding H to, per edge e,
      sum over k of max((H(src e, ·)·A)(k) + (H(dst e, ·)·B)(k) + b1(k), 0) * w2(k) + b2
  with A, B the upper and lower halves of the first weight.

  The kernel-side program computes h·W and the link predictor in three kernel regions and the rest on the
  host: its self-loop term is a dense product beside a scatter over the real edges.  The reference does
  everything on the host and scatters over "the edges, then one self-loop per node".  Over the extended
  reals a change of float format is the identity, a matrix-unit product into a zero accumulator is the
  host's dot_general, and the scatter of the longer list splits into the scatter of the edges plus the
  one self-loop row that lands on each node; nothing beyond re-indexing sums and the commutative monoid
  laws of + is used, so the precondition (finite inputs) is not opened.

  The three frames: the two kernel-side programs' are the generated frame certificates; the reference's is
  its generated run with the result dropped.  `preserves` has no conjunct (the idealization rewrote
  nothing).  `algebraic`: the kernel-side run names the result buffer's final contents (KernelRun.lean),
  read boundary by boundary as the link predictor of the second layer (KernelStages.lean, over the three
  kernels' values of RegionLinear.lean and RegionMlp.lean); the reference's generated run ends at the same
  function (RefStages.lean, ConvBridge.lean, TailBridge.lean).
-/
import proofs.«170264_j3212635537794_2_alg».proof.Defs
import proofs.«170264_j3212635537794_2_alg».proof.Proof.Gen.Kernel
import proofs.«170264_j3212635537794_2_alg».proof.Proof.Gen.Kernel.Skeleton
import proofs.«170264_j3212635537794_2_alg».proof.Proof.Gen.Kernel.Launch
import proofs.«170264_j3212635537794_2_alg».proof.Proof.Gen.Kernel.Points
import proofs.«170264_j3212635537794_2_alg».proof.Proof.Gen.Kernel.Frame
import proofs.«170264_j3212635537794_2_alg».proof.Proof.Gen.KernelIdeal
import proofs.«170264_j3212635537794_2_alg».proof.Proof.Gen.KernelIdeal.Skeleton
import proofs.«170264_j3212635537794_2_alg».proof.Proof.Gen.KernelIdeal.Launch
import proofs.«170264_j3212635537794_2_alg».proof.Proof.Gen.KernelIdeal.Points
import proofs.«170264_j3212635537794_2_alg».proof.Proof.Gen.KernelIdeal.Frame
import proofs.«170264_j3212635537794_2_alg».proof.Proof.Gen.ReferenceIdeal
import proofs.«170264_j3212635537794_2_alg».proof.Proof.Gen.Pre_finite_inputs
import proofs.«170264_j3212635537794_2_alg».proof.Proof.Gen.ReferenceIdeal.Run
import proofs.«170264_j3212635537794_2_alg».proof.Proof.Gen.ReferenceIdeal.Read
import proofs.«170264_j3212635537794_2_alg».proof.Proof.Terms
import proofs.«170264_j3212635537794_2_alg».proof.Proof.KernelRun
import proofs.«170264_j3212635537794_2_alg».proof.Proof.KernelStages
import proofs.«170264_j3212635537794_2_alg».proof.Proof.RefStages
import proofs.«170264_j3212635537794_2_alg».proof.Proof.RegionLinear
import proofs.«170264_j3212635537794_2_alg».proof.Proof.RegionMlp
import proofs.«170264_j3212635537794_2_alg».proof.Proof.ConvBridge
import proofs.«170264_j3212635537794_2_alg».proof.Proof.TailBridge
import Idealize.ShloMosaic.Adequacy
import Idealize.ShloMosaic.Init

noncomputable section

namespace Cert.Proof

open Idealize.ShloMosaic Idealize.ShloMosaic.TcCoe Idealize.SL.Sem
open Cert.Terms

/-- The two programs' results are one function of the ten arguments: the link predictors agree on any node
    embedding, the layers on any features, and the host's matrix product is the kernels'. -/
theorem value_eq (x0 : (⟨2, ![50000, 128]⟩ : Shape).Idx → EReal) (x1 : IVec ⟨2, ![2, 800000]⟩ 32)
    (x2 : (⟨2, ![128, 128]⟩ : Shape).Idx → EReal) (x3 : (⟨1, ![128]⟩ : Shape).Idx → EReal)
    (x4 : (⟨2, ![128, 128]⟩ : Shape).Idx → EReal) (x5 : (⟨1, ![128]⟩ : Shape).Idx → EReal)
    (x6 : (⟨2, ![256, 128]⟩ : Shape).Idx → EReal) (x7 : (⟨1, ![128]⟩ : Shape).Idx → EReal)
    (x8 : (⟨2, ![128, 1]⟩ : Shape).Idx → EReal) (x9 : (⟨1, ![1]⟩ : Shape).Idx → EReal) :
    K.tail x1 (K.conv x1 (matmulSpec (K.relu (K.conv x1 (matmulSpec x0 x2) x3)) x4) x5) x6 x7 x8 x9
      = R.tail x1 (R.conv x1 (R.lin (R.relu (R.conv x1 (R.lin x0 x2) x3)) x4) x5) x6 x7 x8 x9 := by
  rw [Cert.Bridge.lin_eq, Cert.Bridge.lin_eq, ← Cert.Bridge.conv_bridge, ← Cert.Bridge.conv_bridge,
    ← Cert.Bridge.tail_bridge]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => K.tail (Cert.KernelIdeal.Stages.ei m c) (Cert.KernelIdeal.Stages.h2 m c)
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Stages.W8_result m ρ Cert.Bridge.region0_value
        Cert.Bridge.region1_value Cert.Bridge.region2_value c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v121_eq, Cert.ReferenceIdeal.Stages.ref_value, e0, e1, e2, e3, e4, e5, e6, e7, e8, e9]
    exact (value_eq _ _ _ _ _ _ _ _ _ _).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
